-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x14x768 : Shape := ⟨3, ![4096, 14, 768]⟩
abbrev S7x768 : Shape := ⟨2, ![7, 768]⟩
abbrev S768x768 : Shape := ⟨2, ![768, 768]⟩
abbrev S768 : Shape := ⟨1, ![768]⟩
abbrev S7 : Shape := ⟨1, ![7]⟩
abbrev S_ : Shape := ⟨0, ![]⟩

class Facts : Prop where
  bcast_S_S4096x14x768 : S_.BroadcastsInDim S4096x14x768 (![] : Fin 0 → Fin S4096x14x768.rank)
  reducesTo_S4096x14x768_S_d0_1_2 : S4096x14x768.ReducesTo [0, 1, 2] S_
  h_S_ : 0 < S_.numel
  bcast_S_S7x768 : S_.BroadcastsInDim S7x768 (![] : Fin 0 → Fin S7x768.rank)
  reducesTo_S7x768_S_d0_1 : S7x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S7 : S_.BroadcastsInDim S7 (![] : Fin 0 → Fin S7.rank)
  reducesTo_S7_S_d0 : S7.ReducesTo [0] S_

variable [Facts]

def fn_part2 {F : FTy → Type} [FloatOps F] (main_arg7 : FVec F S768 .f32) (main_arg8 : FVec F S7 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S7 .f32 := Host.absf main_arg8
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg4 : FVec F S768x768 .f32) (main_arg5 : FVec F S768 .f32) (main_arg6 : FVec F S768x768 .f32) (main_arg7 : FVec F S768 .f32) (main_arg8 : FVec F S7 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x768 .f32 := Host.absf main_arg6
  let main_cst_10 : FVec F S_ .f32 := constant S_ .f32 0x7F800000#32
  let main_v30 : FVec F S768x768 .f32 := broadcastInDim S768x768 ![] bcast_S_S768x768 main_cst_10
  let main_v31 : IVec S768x768 1 := cmpf .olt main_v29 main_v30
  let main_c_11 : IVec S_ 1 := constantI S_ 1 1#1
  let main_v32 : IVec S_ 1 := (fun x v => Host.reduce IntOp.andi x v reducesTo_S768x768_S_d0_1 h_S_) main_v31 main_c_11
  let main_v33 : IVec S_ 1 := andi main_v28 main_v32
  fn_part2 (F := F) main_arg7 main_arg8 main_v33

def fn {F : FTy → Type} [FloatOps F] (main_arg0 : FVec F S4096x14x768 .f32) (main_arg1 : FVec F S7x768 .f32) (main_arg2 : FVec F S768x768 .f32) (main_arg3 : FVec F S768 .f32) (main_arg4 : FVec F S768x768 .f32) (main_arg5 : FVec F S768 .f32) (main_arg6 : FVec F S768x768 .f32) (main_arg7 : FVec F S768 .f32) (main_arg8 : FVec F S7 .f32) : IVec S_ 1 :=
  let main_v0 : FVec F S4096x14x768 .f32 := Host.absf main_arg0
  let main_cst : FVec F S_ .f32 := constant S_ .f32 0x7F800000#32
  let main_v1 : FVec F S4096x14x768 .f32 := broadcastInDim S4096x14x768 ![] bcast_S_S4096x14x768 main_cst
  let main_v2 : IVec S4096x14x768 1 := cmpf .olt main_v0 main_v1
  let main_c : IVec S_ 1 := constantI S_ 1 1#1
  let main_v3 : IVec S_ 1 := (fun x v => Host.reduce IntOp.andi x v reducesTo_S4096x14x768_S_d0_1_2 h_S_) main_v2 main_c
  let main_v4 : FVec F S7x768 .f32 := Host.absf main_arg1
  let main_cst_0 : FVec F S_ .f32 := constant S_ .f32 0x7F800000#32
  let main_v5 : FVec F S7x768 .f32 := broadcastInDim S7x768 ![] bcast_S_S7x768 main_cst_0
  let main_v6 : IVec S7x768 1 := cmpf .olt main_v4 main_v5
  let main_c_1 : IVec S_ 1 := constantI S_ 1 1#1
  let main_v7 : IVec S_ 1 := (fun x v => Host.reduce IntOp.andi x v reducesTo_S7x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_v13 main_v16
-- ==== Kernel.lean ====
abbrev S4096x14x768 : Shape := ⟨3, ![4096, 14, 768]⟩
abbrev S7x768 : Shape := ⟨2, ![7, 768]⟩
abbrev S768x768 : Shape := ⟨2, ![768, 768]⟩
abbrev S768 : Shape := ⟨1, ![768]⟩
abbrev S7 : Shape := ⟨1, ![7]⟩
abbrev S1x768 : Shape := ⟨2, ![1, 768]⟩
abbrev S_ : Shape := ⟨0, ![]⟩
abbrev S7x1 : Shape := ⟨2, ![7, 1]⟩
abbrev S768x7 : Shape := ⟨2, ![768, 7]⟩
abbrev S57344x768 : Shape := ⟨2, ![57344, 768]⟩
abbrev S57344x7 : Shape := ⟨2, ![57344, 7]⟩
abbrev S1792x768 : Shape := ⟨2, ![1792, 768]⟩
abbrev S1792x7 : Shape := ⟨2, ![1792, 7]⟩
abbrev S1792 : Shape := ⟨1, ![1792]⟩
abbrev S1792x1 : Shape := ⟨2, ![1792, 1]⟩
abbrev S4096x14x7 : Shape := ⟨3, ![4096, 14, 7]⟩

abbrev nBuf : Space → Nat
  | .hbm => 36
  | .vmem => 10
  | .smem => 0
  | _ => 0

abbrev bufTy : (tb : Table) → Fin (tcTables nBuf tb) → BufTy
  | .hbm, ⟨0, _⟩ => ⟨S4096x14x768, .f32⟩
  | .hbm, ⟨1, _⟩ => ⟨S7x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S7, .f32⟩
  | .hbm, ⟨9, _⟩ => ⟨S768x768, .f32⟩
  | .hbm, ⟨10, _⟩ => ⟨S7x768, .f32⟩
  | .hbm, ⟨11, _⟩ => ⟨S1x768, .f32⟩
  | .hbm, ⟨12, _⟩ => ⟨S7x768, .f32⟩
  | .hbm, ⟨13, _⟩ => ⟨S7x768, .f32⟩
  | .hbm, ⟨14, _⟩ => ⟨S768x768, .f32⟩
  | .hbm, ⟨15, _⟩ => ⟨S7x768, .f32⟩
  | .hbm, ⟨16, _⟩ => ⟨S1x768, .f32⟩
  | .hbm, ⟨17, _⟩ => ⟨S7x768, .f32⟩
  | .hbm, ⟨18, _⟩ => ⟨S7x768, .f32⟩
  | .hbm, ⟨19, _⟩ => ⟨S_, .f32⟩
  | .hbm, ⟨20, _⟩ => ⟨S7, .f32⟩
  | .hbm, ⟨21, _⟩ => ⟨S7, .f32⟩
  | .hbm, ⟨22, _⟩ => ⟨S7x1, .f32⟩
  | .hbm, ⟨23, _⟩ => ⟨S7x768, .f32⟩
  | .hbm, ⟨24, _⟩ => ⟨S7x768, .f32⟩
  | .hbm, ⟨25, _⟩ => ⟨S768x7, .f32⟩
  | .hbm, ⟨26, _⟩ => ⟨S768x768, .f32⟩
  | .hbm, ⟨27, _⟩ => ⟨S768x768, .bf16⟩
  | .hbm, ⟨28, _⟩ => ⟨S768x7, .bf16⟩
  | .hbm, ⟨29, _⟩ => ⟨S7x768, .bf16⟩
  | .hbm, ⟨30, _⟩ => ⟨S1x768, .f32⟩
  | .hbm, ⟨31, _⟩ => ⟨S57344x768, .f32⟩
  | .hbm, ⟨32, _⟩ => ⟨S57344x768, .f32⟩
  | .hbm, ⟨33, _⟩ => ⟨S57344x7, .f32⟩
  | .hbm, ⟨34, _⟩ => ⟨S4096x14x768, .f32⟩
  | .hbm, ⟨35, _⟩ => ⟨S4096x14x7, .f32⟩
  | .local _ .vmem, ⟨0, _⟩ => ⟨S1792x768, .f32⟩
  | .local _ .vmem, ⟨1, _⟩ => ⟨S1792x768, .f32⟩
  | .local _ .vmem, ⟨2, _⟩ => ⟨S768x768, .bf16⟩
  | .local _ .vmem, ⟨3, _⟩ => ⟨S1x768, .f32⟩
  | .local _ .vmem, ⟨4, _⟩ => ⟨S768x7, .bf16⟩
  | .local _ .vmem, ⟨5, _⟩ => ⟨S7x768, .bf16⟩
  | .local _ .vmem, ⟨6, _⟩ => ⟨S1792x768, .f32⟩
  | .local _ .vmem, ⟨7, _⟩ => ⟨S1792x768, .f32⟩
  | .local _ .vmem, ⟨8, _⟩ => ⟨S1792x7, .f32⟩
  | .local _ .vmem, ⟨9, _⟩ => ⟨S1792x7, .f32⟩
  | _, _ => ⟨S4096x14x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x7 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1792x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S768x768_S768x768_1_0 : S768x768.Transposes [1, 0] S768x768
  bcast_S768_S1x768_1 : S768.BroadcastsInDim S1x768 (![1] : Fin 1 → Fin S1x768.rank)
  bcast_S1x768_S7x768_0_1 : S1x768.BroadcastsInDim S7x768 (![0, 1] : Fin 2 → Fin S7x768.rank)
  bcast_S_S7 : S_.BroadcastsInDim S7 (![] : Fin 0 → Fin S7.rank)
  bcast_S7_S7x1_0 : S7.BroadcastsInDim S7x1 (![0] : Fin 1 → Fin S7x1.rank)
  bcast_S7x1_S7x768_0_1 : S7x1.BroadcastsInDim S7x768 (![0, 1] : Fin 2 → Fin S7x768.rank)
  transposes_S7x768_S768x7_1_0 : S7x768.Transposes [1, 0] S768x7
  bitsLt_bf16_f32 : FTy.bits .bf16 < FTy.bits .f32
  shapeCasts_S768_S1x768 : S768.ShapeCasts S1x768
  shapeCasts_S4096x14x768_S57344x768 : S4096x14x768.ShapeCasts S57344x768
  inb_S1792x768_S1792x768_0_0 : ∀ a, (![0, 0] : Fin 2 → Nat) a + S1792x768.size a ≤ S1792x768.size a
  h_S1792x768 : 0 < S1792x768.numel
  shapeCasts_S1792x768_S1792x768 : S1792x768.ShapeCasts S1792x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1792x768 : S1x768.Broadcasts S1792x768
  inb_S768x7_S768x7_0_0 : ∀ a, (![0, 0] : Fin 2 → Nat) a + S768x7.size a ≤ S768x7.size a
  h_S768x7 : 0 < S768x7.numel
  shapeCasts_S768x7_S768x7 : S768x7.ShapeCasts S768x7
  reduces_S1792x7_S1792 : S1792x7.Reduces [1] S1792
  shapeCasts_S1792_S1792x1 : S1792.ShapeCasts S1792x1
  broadcasts_S1792x1_S1792x7 : S1792x1.Broadcasts S1792x7
  inb_S1792x7_S1792x7_0_0 : ∀ a, (![0, 0] : Fin 2 → Nat) a + S1792x7.size a ≤ S1792x7.size a
  h_S1792x7 : 0 < S1792x7.numel
  inb_S7x768_S7x768_0_0 : ∀ a, (![0, 0] : Fin 2 → Nat) a + S7x768.size a ≤ S7x768.size a
  h_S7x768 : 0 < S7x768.numel
  shapeCasts_S7x768_S7x768 : S7x768.ShapeCasts S7x768
  shapeCasts_S57344x768_S4096x14x768 : S57344x768.ShapeCasts S4096x14x768
  shapeCasts_S57344x7_S4096x14x7 : S57344x7.ShapeCasts S4096x14x7
  dot_S7x768_S768x768_S7x768_1_0_0_1_n_n_wf : DotDims.WF S7x768 S768x768 S7x768 [1] [0] [0] [1] [] []
  dot_S1792x768_S768x768_S1792x768_1_0_0_1_n_n_wf : DotDims.WF S1792x768 S768x768 S1792x768 [1] [0] [0] [1] [] []
  dot_S1792x768_S768x7_S1792x7_1_0_0_1_n_n_wf : DotDims.WF S1792x768 S768x7 S1792x7 [1] [0] [0] [1] [] []
  dot_S1792x7_S7x768_S1792x768_1_0_0_1_n_n_wf : DotDims.WF S1792x7 S7x768 S1792x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x768.size a ≤ S57344x768.size a
  hwx0_0 : ∀ i : grid0.Coords, EltTy.bits .f32 = 32 ∨ (Rect.block (s := S57344x768) S1792x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x7.size a ≤ S768x7.size a
  hwx0_3 : ∀ i : grid0.Coords, EltTy.bits .bf16 = 32 ∨ (Rect.block (s := S768x7) S768x7.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x768.size a ≤ S7x768.size a
  hwx0_4 : ∀ i : grid0.Coords, EltTy.bits .bf16 = 32 ∨ (Rect.block (s := S7x768) S7x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1792x768.size a ≤ S57344x768.size a
  hwx0_5 : ∀ i : grid0.Coords, EltTy.bits .f32 = 32 ∨ (Rect.block (s := S57344x768) S1792x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1792x7.size a ≤ S57344x7.size a
  hwx0_6 : ∀ i : grid0.Coords, EltTy.bits .f32 = 32 ∨ (Rect.block (s := S57344x7) S1792x7.size (cc0_transform_6 i) (hinb0_6 i)).WholeWords (EltTy.packing .f32)

variable [Facts₀]

def dot_S7x768_S768x768_S7x768_1_0_0_1_n_n : DotDims S7x768 S768x768 S7x768 where
  lhsContracting := [1]
  rhsContracting := [0]
  lhsNonContracting := [0]
  rhsNonContracting := [1]
  lhsBatch := []
  rhsBatch := []
  wf := dot_S7x768_S768x768_S7x768_1_0_0_1_n_n_wf
def dot_S1792x768_S768x768_S1792x768_1_0_0_1_n_n : DotDims S1792x768 S768x768 S1792x768 where
  lhsContracting := [1]
  rhsContracting := [0]
  lhsNonContracting := [0]
  rhsNonContracting := [1]
  lhsBatch := []
  rhsBatch := []
  wf := dot_S1792x768_S768x768_S1792x768_1_0_0_1_n_n_wf
def dot_S1792x768_S768x7_S1792x7_1_0_0_1_n_n : DotDims S1792x768 S768x7 S1792x7 where
  lhsContracting := [1]
  rhsContracting := [0]
  lhsNonContracting := [0]
  rhsNonContracting := [1]
  lhsBatch := []
  rhsBatch := []
  wf := dot_S1792x768_S768x7_S1792x7_1_0_0_1_n_n_wf
def dot_S1792x7_S7x768_S1792x768_1_0_0_1_n_n : DotDims S1792x7 S7x768 S1792x768 where
  lhsContracting := [1]
  rhsContracting := [0]
  lhsNonContracting := [0]
  rhsNonContracting := [1]
  lhsBatch := []
  rhsBatch := []
  wf := dot_S1792x7_S7x768_S1792x768_1_0_0_1_n_n_wf

abbrev win0_0 : Pipeline.Window sig grid0 :=
  Pipeline.Window.ofSpec (Memref.whole main_v21) S1792x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S768x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S7x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_0) S1792x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22_1) S1792x7.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x14x768 : Shape := ⟨3, ![4096, 14, 768]⟩
abbrev S7x768 : Shape := ⟨2, ![7, 768]⟩
abbrev S768x768 : Shape := ⟨2, ![768, 768]⟩
abbrev S768 : Shape := ⟨1, ![768]⟩
abbrev S7 : Shape := ⟨1, ![7]⟩
abbrev S1x1x768 : Shape := ⟨3, ![1, 1, 768]⟩
abbrev S1x768 : Shape := ⟨2, ![1, 768]⟩
abbrev S4096x14x7 : Shape := ⟨3, ![4096, 14, 7]⟩
abbrev S_ : Shape := ⟨0, ![]⟩
abbrev S1x1x7 : Shape := ⟨3, ![1, 1, 7]⟩
abbrev S4096x14 : Shape := ⟨2, ![4096, 14]⟩
abbrev S4096x14x1 : Shape := ⟨3, ![4096, 14, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x14x768, .f32⟩
  | .hbm, ⟨1, _⟩ => ⟨S7x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S7, .f32⟩
  | .hbm, ⟨9, _⟩ => ⟨S4096x14x768, .f32⟩
  | .hbm, ⟨10, _⟩ => ⟨S1x1x768, .f32⟩
  | .hbm, ⟨11, _⟩ => ⟨S4096x14x768, .f32⟩
  | .hbm, ⟨12, _⟩ => ⟨S4096x14x768, .f32⟩
  | .hbm, ⟨13, _⟩ => ⟨S768x768, .f32⟩
  | .hbm, ⟨14, _⟩ => ⟨S7x768, .f32⟩
  | .hbm, ⟨15, _⟩ => ⟨S1x768, .f32⟩
  | .hbm, ⟨16, _⟩ => ⟨S7x768, .f32⟩
  | .hbm, ⟨17, _⟩ => ⟨S7x768, .f32⟩
  | .hbm, ⟨18, _⟩ => ⟨S768x768, .f32⟩
  | .hbm, ⟨19, _⟩ => ⟨S7x768, .f32⟩
  | .hbm, ⟨20, _⟩ => ⟨S1x768, .f32⟩
  | .hbm, ⟨21, _⟩ => ⟨S7x768, .f32⟩
  | .hbm, ⟨22, _⟩ => ⟨S7x768, .f32⟩
  | .hbm, ⟨23, _⟩ => ⟨S4096x14x7, .f32⟩
  | .hbm, ⟨24, _⟩ => ⟨S_, .f32⟩
  | .hbm, ⟨25, _⟩ => ⟨S4096x14x7, .f32⟩
  | .hbm, ⟨26, _⟩ => ⟨S4096x14x7, .f32⟩
  | .hbm, ⟨27, _⟩ => ⟨S1x1x7, .f32⟩
  | .hbm, ⟨28, _⟩ => ⟨S4096x14x7, .f32⟩
  | .hbm, ⟨29, _⟩ => ⟨S4096x14x7, .f32⟩
  | .hbm, ⟨30, _⟩ => ⟨S_, .f32⟩
  | .hbm, ⟨31, _⟩ => ⟨S4096x14, .f32⟩
  | .hbm, ⟨32, _⟩ => ⟨S_, .f32⟩
  | .hbm, ⟨33, _⟩ => ⟨S4096x14, .f32⟩
  | .hbm, ⟨34, _⟩ => ⟨S4096x14, .f32⟩
  | .hbm, ⟨35, _⟩ => ⟨S4096x14x1, .f32⟩
  | .hbm, ⟨36, _⟩ => ⟨S4096x14x7, .f32⟩
  | .hbm, ⟨37, _⟩ => ⟨S4096x14x7, .f32⟩
  | .hbm, ⟨38, _⟩ => ⟨S4096x14x7, .f32⟩
  | .hbm, ⟨39, _⟩ => ⟨S_, .f32⟩
  | .hbm, ⟨40, _⟩ => ⟨S4096x14, .f32⟩
  | .hbm, ⟨41, _⟩ => ⟨S4096x14x1, .f32⟩
  | .hbm, ⟨42, _⟩ => ⟨S4096x14x7, .f32⟩
  | .hbm, ⟨43, _⟩ => ⟨S4096x14x7, .f32⟩
  | .hbm, ⟨44, _⟩ => ⟨S4096x14x768, .f32⟩
  | _, _ => ⟨S4096x14x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4096x14x768_0_1_2 : S1x1x768.BroadcastsInDim S4096x14x768 (![0, 1, 2] : Fin 3 → Fin S4096x14x768.rank)
  transposes_S768x768_S768x768_1_0 : S768x768.Transposes [1, 0] S768x768
  bcast_S768_S1x768_1 : S768.BroadcastsInDim S1x768 (![1] : Fin 1 → Fin S1x768.rank)
  bcast_S1x768_S7x768_0_1 : S1x768.BroadcastsInDim S7x768 (![0, 1] : Fin 2 → Fin S7x768.rank)
  bcast_S_S4096x14x7 : S_.BroadcastsInDim S4096x14x7 (![] : Fin 0 → Fin S4096x14x7.rank)
  bcast_S7_S1x1x7_2 : S7.BroadcastsInDim S1x1x7 (![2] : Fin 1 → Fin S1x1x7.rank)
  bcast_S1x1x7_S4096x14x7_0_1_2 : S1x1x7.BroadcastsInDim S4096x14x7 (![0, 1, 2] : Fin 3 → Fin S4096x14x7.rank)
  reducesTo_S4096x14x7_S4096x14_d2 : S4096x14x7.ReducesTo [2] S4096x14
  h_S_ : 0 < S_.numel
  bcast_S_S4096x14 : S_.BroadcastsInDim S4096x14 (![] : Fin 0 → Fin S4096x14.rank)
  bcast_S4096x14_S4096x14x1_0_1 : S4096x14.BroadcastsInDim S4096x14x1 (![0, 1] : Fin 2 → Fin S4096x14x1.rank)
  bcast_S4096x14x1_S4096x14x7_0_1_2 : S4096x14x1.BroadcastsInDim S4096x14x7 (![0, 1, 2] : Fin 3 → Fin S4096x14x7.rank)
  dot_S4096x14x768_S768x768_S4096x14x768_2_1_01_0_n_n_wf : DotDims.WF S4096x14x768 S768x768 S4096x14x768 [2] [1] [0, 1] [0] [] []
  dot_S7x768_S768x768_S7x768_1_0_0_1_n_n_wf : DotDims.WF S7x768 S768x768 S7x768 [1] [0] [0] [1] [] []
  dot_S4096x14x768_S7x768_S4096x14x7_2_1_01_0_n_n_wf : DotDims.WF S4096x14x768 S7x768 S4096x14x7 [2] [1] [0, 1] [0] [] []
  dot_S4096x14x7_S7x768_S4096x14x768_2_0_01_1_n_n_wf : DotDims.WF S4096x14x7 S7x768 S4096x14x768 [2] [0] [0, 1] [1] [] []

variable [Facts₀]

def dot_S4096x14x768_S768x768_S4096x14x768_2_1_01_0_n_n : DotDims S4096x14x768 S768x768 S4096x14x768 where
  lhsContracting := [2]
  rhsContracting := [1]
  lhsNonContracting := [0, 1]
  rhsNonContracting := [0]
  lhsBatch := []
  rhsBatch := []
  wf := dot_S4096x14x768_S768x768_S4096x14x768_2_1_01_0_n_n_wf
def dot_S7x768_S768x768_S7x768_1_0_0_1_n_n : DotDims S7x768 S768x768 S7x768 where
  lhsContracting := [1]
  rhsContracting := [0]
  lhsNonContracting := [0]
  rhsNonContracting := [1]
  lhsBatch := []
  rhsBatch := []
  wf := dot_S7x768_S768x768_S7x768_1_0_0_1_n_n_wf
def dot_S4096x14x768_S7x768_S4096x14x7_2_1_01_0_n_n : DotDims S4096x14x768 S7x768 S4096x14x7 where
  lhsContracting := [2]
  rhsContracting := [1]
  lhsNonContracting := [0, 1]
  rhsNonContracting := [0]
  lhsBatch := []
  rhsBatch := []
  wf := dot_S4096x14x768_S7x768_S4096x14x7_2_1_01_0_n_n_wf
def dot_S4096x14x7_S7x768_S4096x14x768_2_0_01_1_n_n : DotDims S4096x14x7 S7x768 S4096x14x768 where
  lhsContracting := [2]
  rhsContracting := [0]
  lhsNonContracting := [0, 1]
  rhsNonContracting := [1]
  lhsBatch := []
  rhsBatch := []
  wf := dot_S4096x14x7_S7x768_S4096x14x768_2_0_01_1_n_n_wf

class Facts : Prop extends Facts₀ where

variable [Facts]
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.AttnSpec.lean ====
/-
  Region attention for one row of features, on the extended reals, in the two arrangements the two programs use.

  A row `x : Fin 768 → EReal` is projected to a query `q g = (∑ f, x f · Wq g f) + bq g`.  Its seven scores against
  the region keys are, in one arrangement, `∑ f, q f · (K r f · (c · w r))` (the scale `c` and the region weight
  `w r` folded into the key before the product), in the other `((∑ f, q f · K r f) · c) · w r` (applied after it).
  The scores go through a softmax over the seven regions, `exp (s r − max s) / ∑ k, exp (s k − max s)`, and the
  weights mix the region values, `∑ r, a r · V r f`.

  The two score arrangements agree when every factor is a real number: then both are images of real numbers and the
  identity is distributivity and associativity in ℝ.  (With an infinite factor the left sum can meet `⊤ + ⊥`.)
  The maximum is the fold of `max` from a starting value `lo`; taking `max lo` of it once more changes nothing.
-/
import Idealize.ShloMosaic.PureOps.Ideal
import Mathlib.Data.Finset.Fold
import proofs.«136793_j31662498906303_2_alg».proof.Proof.LibSumSwap

noncomputable section

open scoped BigOperators

namespace Cert.Attn

open Idealize.ShloMosaic

/-- The affine map `x ↦ x · Wᵀ + b` at output coordinate `g`. -/
def proj {n k : ℕ} (x : Fin n → EReal) (W : Fin k → Fin n → EReal) (b : Fin k → EReal) (g : Fin k) : EReal :=
  (∑ f : Fin n, x f * W g f) + b g

/-- Scores against keys that already carry their factor: `∑ f, q f · Kt f r`. -/
def scoresFolded (q : Fin 768 → EReal) (Kt : Fin 768 → Fin 7 → EReal) (r : Fin 7) : EReal :=
  ∑ f : Fin 768, q f * Kt f r

/-- Scores scaled after the product: `((∑ f, q f · K r f) · c) · w r`. -/
def scoresScaled (q : Fin 768 → EReal) (K : Fin 7 → Fin 768 → EReal) (c : EReal) (w : Fin 7 → EReal) (r : Fin 7) : EReal :=
  ((∑ f : Fin 768, q f * K r f) * c) * w r

/-- The maximum of seven scores, folded from `lo`. -/
def rowMax (lo : EReal) (s : Fin 7 → EReal) : EReal := (Finset.univ : Finset (Fin 7)).fold max lo s

/-- The softmax weight of region `r`. -/
def soft (lo : EReal) (s : Fin 7 → EReal) (r : Fin 7) : EReal :=
  Ideal.div (Ideal.exp (s r - rowMax lo s)) (∑ k : Fin 7, Ideal.exp (s k - rowMax lo s))

/-- The weighted mix of the region values at feature `f`. -/
def mix (a : Fin 7 → EReal) (V : Fin 7 → Fin 768 → EReal) (f : Fin 768) : EReal := ∑ r : Fin 7, a r * V r f

/-- The fold already dominates its starting value. -/
theorem max_rowMax (lo : EReal) (s : Fin 7 → EReal) : max lo (rowMax lo s) = rowMax lo s :=
  max_eq_right ((Finset.le_fold_max lo).mpr (Or.inl le_rfl))

/-- An affine image of real numbers is a real number. -/
theorem proj_real {n k : ℕ} (x : Fin n → ℝ) (W : Fin k → Fin n → ℝ) (b : Fin k → ℝ) (g : Fin k) :
    proj (fun f => (x f : EReal)) (fun g f => (W g f : EReal)) (fun g => (b g : EReal)) g
      = (((∑ f : Fin n, x f * W g f) + b g : ℝ) : EReal) := by
  unfold proj
  rw [EReal.coe_add, SumSwap.coe_sum]
  simp only [EReal.coe_mul]

/-- The same from pointwise witnesses. -/
theorem proj_isReal {n k : ℕ} (x : Fin n → EReal) (W : Fin k → Fin n → EReal) (b : Fin k → EReal)
    (hx : ∀ f, ∃ t : ℝ, x f = t) (hW : ∀ g f, ∃ t : ℝ, W g f = t) (hb : ∀ g, ∃ t : ℝ, b g = t) (g : Fin k) :
    ∃ t : ℝ, proj x W b g = t := by
  choose x' hx' using hx
  choose W' hW' using hW
  choose b' hb' using hb
  obtain rfl : x = fun f => (x' f : EReal) := funext hx'
  obtain rfl : W = fun g f => (W' g f : EReal) := funext fun g => funext (hW' g)
  obtain rfl : b = fun g => (b' g : EReal) := funext hb'
  exact ⟨_, proj_real x' W' b' g⟩

/-- For real factors, folding `c · w` into the key or applying `c` and `w` after the sum is the same number. -/
theorem fold_scale_real {ι : Type*} [Fintype ι] (q K : ι → ℝ) (c w : ℝ) :
    ∑ f, (q f : EReal) * ((K f : EReal) * ((c : EReal) * (w : EReal)))
      = ((∑ f, (q f : EReal) * (K f : EReal)) * (c : EReal)) * (w : EReal) := by
  have hl : ∀ f, (q f : EReal) * ((K f : EReal) * ((c : EReal) * (w : EReal))) = ((q f * (K f * (c * w)) : ℝ) : EReal) :=
    fun f => by simp only [EReal.coe_mul]
  have hr : ∀ f, (q f : EReal) * (K f : EReal) = ((q f * K f : ℝ) : EReal) := fun f => by simp only [EReal.coe_mul]
  simp only [hl, hr]
  rw [← SumSwap.coe_sum, ← SumSwap.coe_sum, ← EReal.coe_mul, ← EReal.coe_mul]
  congr 1
  rw [Finset.sum_mul, Finset.sum_mul]
  exact Finset.sum_congr rfl fun f _ => by ring

/-- The two score arrangements agree on real data. -/
theorem scoresFolded_eq_scoresScaled (q : Fin 768 → EReal) (K : Fin 7 → Fin 768 → EReal) (c : EReal) (w : Fin 7 → EReal)
    (hq : ∀ f, ∃ t : ℝ, q f = t) (hK : ∀ r f, ∃ t : ℝ, K r f = t) (hc : ∃ t : ℝ, c = t) (hw : ∀ r, ∃ t : ℝ, w r = t) :
    scoresFolded q (fun f r => K r f * (c * w r)) = scoresScaled q K c w := by
  choose q' hq' using hq
  choose K' hK' using hK
  obtain ⟨c', rfl⟩ := hc
  choose w' hw' using hw
  funext r
  unfold scoresFolded scoresScaled
  simp only [hq', hK', hw']
  exact fold_scale_real q' (K' r) c' (w' r)

end Cert.Attn

end
-- ==== Proof.KernelBody.lean ====
/-
  What the kernel body computes on one block of 1792 rows, entry by entry.

  The body loads a block `x0` of 1792 feature rows, the transposed query weight `x1` (entry `(e, g)` is `Wq g e`),
  the query bias as one row `x2`, the folded keys `x3` (entry `(f, r)`) and the region values `x4` (entry `(r, f)`).
  Row `p` of its first result is the softmax of the seven scores of that row's query; row `p` of its second
  result mixes the region values with those weights.  Each intermediate block is named here and read at an entry;
  the two stored values are these names by unfolding.
-/
import proofs.«136793_j31662498906303_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«136793_j31662498906303_2_alg».proof.Proof.LibPlainMatmul
import proofs.«136793_j31662498906303_2_alg».proof.Proof.LibColumn
import proofs.«136793_j31662498906303_2_alg».proof.Proof.AttnSpec

noncomputable section

open scoped BigOperators

namespace Cert.KernelIdeal.Body

open Cert.KernelIdeal Cert.KernelIdeal.Gen Idealize.ShloMosaic Idealize.ShloMosaic.ValueIdx Cert.Attn

/-- The value the row maximum is folded from. -/
abbrev LO : EReal := Ideal.ofBits .f32 0xFF800000#32

/-- The query block: `x0 · x1 + x2`, one row of bias under every row. -/
def qB (x0 : FVec Ideal S1792x768 .f32) (x1 : FVec Ideal S768x768 .bf16) (x2 : FVec Ideal S1x768 .f32) : FVec Ideal S1792x768 .bf16 :=
  truncf .bf16 (addf (matmul dot_S1792x768_S768x768_S1792x768_1_0_0_1_n_n none
      (truncf .bf16 (shapeCast S1792x768 x0 shapeCasts_S1792x768_S1792x768) bitsLt_bf16_f32)
      (shapeCast S768x768 x1 shapeCasts_S768x768_S768x768) (constant S1792x768 .f32 0x00000000#32))
    (broadcastTo S1792x768 (shapeCast S1x768 x2 shapeCasts_S1x768_S1x768) broadcasts_S1x768_S1792x768)) bitsLt_bf16_f32

/-- The score block: queries times folded keys. -/
def sB (q : FVec Ideal S1792x768 .bf16) (x3 : FVec Ideal S768x7 .bf16) : FVec Ideal S1792x7 .f32 :=
  matmul dot_S1792x768_S768x7_S1792x7_1_0_0_1_n_n none q (shapeCast S768x7 x3 shapeCasts_S768x7_S768x7)
    (constant S1792x7 .f32 0x00000000#32)

/-- Each row's maximum, repeated along the row. -/
def mB (s : FVec Ideal S1792x7 .f32) : FVec Ideal S1792x7 .f32 :=
  broadcastTo S1792x7 (shapeCast S1792x1 (multiReduction .maximumf [1] S1792 s 0xFF800000#32 reduces_S1792x7_S1792 (.inl rfl) rfl)
    shapeCasts_S1792_S1792x1) broadcasts_S1792x1_S1792x7

/-- The exponentials of the scores less their row maximum. -/
def eB (s : FVec Ideal S1792x7 .f32) : FVec Ideal S1792x7 .f32 := exp (subf s (mB s))

/-- Each row's sum, repeated along the row. -/
def lB (e : FVec Ideal S1792x7 .f32) : FVec Ideal S1792x7 .f32 :=
  broadcastTo S1792x7 (shapeCast S1792x1 (multiReduction .add [1] S1792 e 0x00000000#32 reduces_S1792x7_S1792 (.inl rfl) rfl)
    shapeCasts_S1792_S1792x1) broadcasts_S1792x1_S1792x7

/-- The softmax block. -/
def aB (s : FVec Ideal S1792x7 .f32) : FVec Ideal S1792x7 .f32 := divf (eB s) (lB (eB s))

/-- The mixed block: weights times region values. -/
def oB (a : FVec Ideal S1792x7 .f32) (x4 : FVec Ideal S7x768 .bf16) : FVec Ideal S1792x768 .f32 :=
  matmul dot_S1792x7_S7x768_S1792x768_1_0_0_1_n_n none (truncf .bf16 a bitsLt_bf16_f32)
    (shapeCast S7x768 x4 shapeCasts_S7x768_S7x768) (constant S1792x768 .f32 0x00000000#32)

/-- The body's first stored value is the softmax block of the scores. -/
theorem pay1_eq (x0 : FVec Ideal S1792x768 .f32) (x1 : FVec Ideal S768x768 .bf16) (x2 : FVec Ideal S1x768 .f32)
    (x3 : FVec Ideal S768x7 .bf16) : k0_pay1 x0 x1 x2 x3 = aB (sB (qB x0 x1 x2) x3) := rfl

/-- Its second stored value is the mix of the region values by that block. -/
theorem pay2_eq (x0 : FVec Ideal S1792x768 .f32) (x1 : FVec Ideal S768x768 .bf16) (x2 : FVec Ideal S1x768 .f32)
    (x3 : FVec Ideal S768x7 .bf16) (x4 : FVec Ideal S7x768 .bf16) :
    k0_pay2 x0 x1 x2 x3 x4 = oB (aB (sB (qB x0 x1 x2) x3)) x4 := rfl

/-- A query entry is the affine image of its feature row. -/
theorem qB_apply (x0 : FVec Ideal S1792x768 .f32) (x1 : FVec Ideal S768x768 .bf16) (x2 : FVec Ideal S1x768 .f32)
    (p : Fin 1792) (g : Fin 768) :
    qB x0 x1 x2 (ix2 p g) = proj (fun e => x0 (ix2 p e)) (fun g e => x1 (ix2 e g)) (fun g => x2 (ix2 (0 : Fin 1) g)) g := by
  unfold qB proj
  rw [shapeCast_self, shapeCast_self, shapeCast_self]
  show FloatOps.matmul dot_S1792x768_S768x768_S1792x768_1_0_0_1_n_n none _ _ (constant S1792x768 .f32 0x00000000#32) (ix2 p g)
      + broadcastTo S1792x768 x2 broadcasts_S1x768_S1792x768 (ix2 p g) = _
  rw [LibPlainMatmul.matmul_plain_zero_apply dot_S1792x768_S768x768_S1792x768_1_0_0_1_n_n rfl, broadcastTo_1b_ab_apply]
  rfl

/-- A score entry is the row's query against one folded key. -/
theorem sB_apply (q : FVec Ideal S1792x768 .bf16) (x3 : FVec Ideal S768x7 .bf16) (p : Fin 1792) (r : Fin 7) :
    sB q x3 (ix2 p r) = scoresFolded (fun f => q (ix2 p f)) (fun f r => x3 (ix2 f r)) r := by
  unfold sB scoresFolded
  rw [shapeCast_self]
  exact LibPlainMatmul.matmul_plain_zero_apply dot_S1792x768_S768x7_S1792x7_1_0_0_1_n_n rfl none q x3 p r

/-- The repeated row maximum at an entry is the fold of `max` over the row's seven scores. -/
theorem mB_apply (s : FVec Ideal S1792x7 .f32) (p : Fin 1792) (r : Fin 7) :
    mB s (ix2 p r) = rowMax LO (fun k => s (ix2 p k)) := by
  unfold mB rowMax
  rw [LibColumn.broadcastTo_a1_ab_apply, LibColumn.shapeCast_a_a1_apply]
  refine (Ideal.multiReduction_maximumf_single s 0xFF800000#32 reduces_S1792x7_S1792 (.inl rfl) rfl (ix1 p)).trans ?_
  exact congrArg (fun f => (Finset.univ : Finset (Fin 7)).fold max LO f)
    (funext fun k => congrArg s (LibColumn.lift_cols reduces_S1792x7_S1792 p k))

/-- An exponential entry. -/
theorem eB_apply (s : FVec Ideal S1792x7 .f32) (p : Fin 1792) (r : Fin 7) :
    eB s (ix2 p r) = Ideal.exp (s (ix2 p r) - rowMax LO (fun k => s (ix2 p k))) := by
  unfold eB
  show Ideal.exp (s (ix2 p r) - mB s (ix2 p r)) = _
  rw [mB_apply]

/-- The repeated row sum at an entry is the sum over the row's seven entries. -/
theorem lB_apply (e : FVec Ideal S1792x7 .f32) (p : Fin 1792) (r : Fin 7) :
    lB e (ix2 p r) = ∑ k : Fin 7, e (ix2 p k) := by
  unfold lB
  rw [LibColumn.broadcastTo_a1_ab_apply, LibColumn.shapeCast_a_a1_apply]
  refine (Ideal.multiReduction_add_single e 0x00000000#32 reduces_S1792x7_S1792 (.inl rfl) rfl (ix1 p)).trans ?_
  exact Finset.sum_congr rfl fun k _ => congrArg e (LibColumn.lift_cols reduces_S1792x7_S1792 p k)

/-- A softmax entry is the softmax weight of the row's seven scores. -/
theorem aB_apply (s : FVec Ideal S1792x7 .f32) (p : Fin 1792) (r : Fin 7) :
    aB s (ix2 p r) = soft LO (fun k => s (ix2 p k)) r := by
  unfold aB soft
  show Ideal.div (eB s (ix2 p r)) (lB (eB s) (ix2 p r)) = _
  rw [lB_apply, eB_apply]
  simp only [eB_apply]

/-- A mixed entry. -/
theorem oB_apply (a : FVec Ideal S1792x7 .f32) (x4 : FVec Ideal S7x768 .bf16) (p : Fin 1792) (f : Fin 768) :
    oB a x4 (ix2 p f) = mix (fun r => a (ix2 p r)) (fun r f => x4 (ix2 r f)) f := by
  unfold oB mix
  rw [shapeCast_self]
  exact LibPlainMatmul.matmul_plain_zero_apply dot_S1792x7_S7x768_S1792x768_1_0_0_1_n_n rfl none (truncf .bf16 a bitsLt_bf16_f32) x4 p f

/-- THE FIRST STORED VALUE at `(p, r)`: the softmax weight of region `r` for feature row `p` of the block. -/
theorem pay1_apply (x0 : FVec Ideal S1792x768 .f32) (x1 : FVec Ideal S768x768 .bf16) (x2 : FVec Ideal S1x768 .f32)
    (x3 : FVec Ideal S768x7 .bf16) (p : Fin 1792) (r : Fin 7) :
    k0_pay1 (F := Ideal) x0 x1 x2 x3 (ix2 p r)
      = soft LO (scoresFolded (proj (fun e => x0 (ix2 p e)) (fun g e => x1 (ix2 e g)) (fun g => x2 (ix2 (0 : Fin 1) g)))
          (fun f r => x3 (ix2 f r))) r := by
  rw [pay1_eq, aB_apply]
  congr 1
  funext k
  rw [sB_apply]
  congr 1
  funext f
  rw [qB_apply]

/-- THE SECOND STORED VALUE at `(p, f)`: the region values mixed by those weights. -/
theorem pay2_apply (x0 : FVec Ideal S1792x768 .f32) (x1 : FVec Ideal S768x768 .bf16) (x2 : FVec Ideal S1x768 .f32)
    (x3 : FVec Ideal S768x7 .bf16) (x4 : FVec Ideal S7x768 .bf16) (p : Fin 1792) (f : Fin 768) :
    k0_pay2 (F := Ideal) x0 x1 x2 x3 x4 (ix2 p f)
      = mix (soft LO (scoresFolded (proj (fun e => x0 (ix2 p e)) (fun g e => x1 (ix2 e g)) (fun g => x2 (ix2 (0 : Fin 1) g)))
          (fun f r => x3 (ix2 f r)))) (fun r f => x4 (ix2 r f)) f := by
  rw [pay2_eq, oB_apply]
  congr 1
  funext r
  rw [← pay1_eq, pay1_apply]

end Cert.KernelIdeal.Body

end
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.KernelHost.lean ====
/-
  What the kernel's region finds in the five arrays it reads, entry by entry.

  Before the region the host re-lays the features as 57344 rows, transposes the query weight, turns the query bias
  into one row, and builds the region keys `K` and values `V` as the reference does (`regions · Wkᵀ + bk`,
  `regions · Wvᵀ + bv`).  It multiplies row `r` of `K` by `c · w r` (the scale times the region weight) and
  transposes the result.  Row `14 b + d` of the re-laid features is the feature row `(b, d)`.
-/
import proofs.«136793_j31662498906303_2_alg».proof.Proof.Gen.KernelIdeal.Frame
import proofs.«136793_j31662498906303_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import proofs.«136793_j31662498906303_2_alg».proof.Proof.LibMidAxisLayout

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The argument arrays as launched. -/
abbrev a0 (c : Dev nD) : FVec Ideal S4096x14x768 .f32 := m ((c : Thread nD τ).loc main_arg0)
abbrev a1 (c : Dev nD) : FVec Ideal S7x768 .f32 := m ((c : Thread nD τ).loc main_arg1)
abbrev a2 (c : Dev nD) : FVec Ideal S768x768 .f32 := m ((c : Thread nD τ).loc main_arg2)
abbrev a3 (c : Dev nD) : FVec Ideal S768 .f32 := m ((c : Thread nD τ).loc main_arg3)
abbrev a4 (c : Dev nD) : FVec Ideal S768x768 .f32 := m ((c : Thread nD τ).loc main_arg4)
abbrev a5 (c : Dev nD) : FVec Ideal S768 .f32 := m ((c : Thread nD τ).loc main_arg5)
abbrev a6 (c : Dev nD) : FVec Ideal S768x768 .f32 := m ((c : Thread nD τ).loc main_arg6)
abbrev a7 (c : Dev nD) : FVec Ideal S768 .f32 := m ((c : Thread nD τ).loc main_arg7)
abbrev a8 (c : Dev nD) : FVec Ideal S7 .f32 := m ((c : Thread nD τ).loc main_arg8)

/-- The region keys and values, as the reference's own stages of the same arguments. -/
abbrev keys (c : Dev nD) : FVec Ideal S7x768 .f32 := Cert.ReferenceIdeal.Read.val_main_v8 (F := Ideal) (a1 m c) (a4 m c) (a5 m c)
abbrev vals (c : Dev nD) : FVec Ideal S7x768 .f32 := Cert.ReferenceIdeal.Read.val_main_v13 (F := Ideal) (a1 m c) (a6 m c) (a7 m c)

/-- The scale constant. -/
abbrev SCALE : EReal := Ideal.ofBits .f32 0x3D13CD3A#32

/-! ## The arrays as whole terms -/

theorem feat_eq (c : Dev nD) : (V m c main_v21 : FVec Ideal S57344x768 .f32)
    = shapeCast S57344x768 (a0 m c) shapeCasts_S4096x14x768_S57344x768 := by
  show StableHlo.after hostOps0 (fun b => m (c, b)) (Proc.devRef .tc main_v21) = _
  after_results <;> rfl

theorem wqt_eq (c : Dev nD) : (V m c main_v17 : FVec Ideal S768x768 .bf16)
    = truncf .bf16 (transpose S768x768 [1, 0] (a2 m c) transposes_S768x768_S768x768_1_0) bitsLt_bf16_f32 := by
  show StableHlo.after hostOps0 (fun b => m (c, b)) (Proc.devRef .tc main_v17) = _
  after_results <;> rfl

theorem bias_eq (c : Dev nD) : (V m c main_v20 : FVec Ideal S1x768 .f32)
    = shapeCast S1x768 (a3 m c) shapeCasts_S768_S1x768 := by
  show StableHlo.after hostOps0 (fun b => m (c, b)) (Proc.devRef .tc main_v20) = _
  after_results <;> rfl

theorem kt_eq (c : Dev nD) : (V m c main_v18 : FVec Ideal S768x7 .bf16)
    = truncf .bf16 (transpose S768x7 [1, 0]
        (mulf (keys m c) (broadcastInDim S7x768 ![0, 1] bcast_S7x1_S7x768_0_1 (broadcastInDim S7x1 ![0] bcast_S7_S7x1_0
          (mulf (broadcastInDim S7 ![] bcast_S_S7 (constant (F := Ideal) S_ .f32 0x3D13CD3A#32)) (a8 m c)))))
        transposes_S7x768_S768x7_1_0) bitsLt_bf16_f32 := by
  show StableHlo.after hostOps0 (fun b => m (c, b)) (Proc.devRef .tc main_v18) = _
  after_results <;> rfl

theorem v_eq (c : Dev nD) : (V m c main_v19 : FVec Ideal S7x768 .bf16) = truncf .bf16 (vals m c) bitsLt_bf16_f32 := by
  show StableHlo.after hostOps0 (fun b => m (c, b)) (Proc.devRef .tc main_v19) = _
  after_results <;> rfl

/-! ## The arrays at an entry -/

/-- Row `i = 14 b + d` of the re-laid features is the feature row `(b, d)`. -/
theorem feat_apply (c : Dev nD) (i : Fin 57344) (b : Fin 4096) (d : Fin 14) (e : Fin 768) (hi : i.val = b.val * 14 + d.val) :
    (V m c main_v21 : FVec Ideal S57344x768 .f32) (ix2 i e) = a0 m c (ix3 b d e) := by
  rw [feat_eq]
  exact LibMidAxisLayout.shapeCast_abc_mc_apply (a0 m c) shapeCasts_S4096x14x768_S57344x768 b d e i hi

/-- The transposed query weight at `(e, g)` is `Wq g e`. -/
theorem wqt_apply (c : Dev nD) (e g : Fin 768) :
    (V m c main_v17 : FVec Ideal S768x768 .bf16) (ix2 e g) = a2 m c (ix2 g e) := by
  rw [wqt_eq]
  exact transpose_ix2_apply (a2 m c) transposes_S768x768_S768x768_1_0 e g

/-- The one-row query bias at `(0, g)`. -/
theorem bias_apply (c : Dev nD) (g : Fin 768) :
    (V m c main_v20 : FVec Ideal S1x768 .f32) (ix2 (0 : Fin 1) g) = a3 m c (ix1 g) := by
  rw [bias_eq]
  exact shapeCast_a_1a_apply (a3 m c) shapeCasts_S768_S1x768 (0 : Fin 1) g

/-- The folded, transposed keys at `(f, r)`: `K r f · (c · w r)`. -/
theorem kt_apply (c : Dev nD) (f : Fin 768) (r : Fin 7) :
    (V m c main_v18 : FVec Ideal S768x7 .bf16) (ix2 f r) = keys m c (ix2 r f) * (SCALE * a8 m c (ix1 r)) := by
  rw [kt_eq, truncf_apply, transpose_ix2_apply, mulf_apply]
  refine congrArg (keys m c (ix2 r f) * ·) ?_
  rw [broadcastInDim_apply _ bcast_S7x1_S7x768_0_1 _ (ix2 r f) (ix2 r (0 : Fin 1)) (fun a => match a with
      | ⟨0, _⟩ => by show r.val = if (7 : Nat) = 1 then 0 else r.val; rw [if_neg (by decide)]
      | ⟨1, _⟩ => by show 0 = if (1 : Nat) = 1 then 0 else f.val; rw [if_pos rfl]),
    broadcastInDim_apply _ bcast_S7_S7x1_0 _ (ix2 r (0 : Fin 1)) (ix1 r) (fun a => match a with
      | ⟨0, _⟩ => by show r.val = if (7 : Nat) = 1 then 0 else r.val; rw [if_neg (by decide)]),
    mulf_apply, broadcastInDim_apply _ bcast_S_S7 _ (ix1 r) ix0 (fun a => a.elim0)]
  rfl

/-- The region values at `(r, f)`. -/
theorem v_apply (c : Dev nD) (r : Fin 7) (f : Fin 768) :
    (V m c main_v19 : FVec Ideal S7x768 .bf16) (ix2 r f) = vals m c (ix2 r f) := by
  rw [v_eq]
  rfl

end Cert.KernelIdeal.HostSide

end
-- ==== Proof.KernelValue.lean ====
/-
  The kernel's two result arrays after the run, as functions of the arrays its region reads.

  Grid point `t` works on the 1792 feature rows `1792 t … 1792 t + 1791`; the weight, bias, key and value arrays are
  read whole at every point.  What it writes back to either result is the block of ONE whole-array function: row `i`
  of the first result is the softmax of row `i`'s scores, row `i` of the second the region values mixed by it.  The
  32 blocks tile both results, so after the run each result array is that function; the two final reshapes then
  read row `14 b + d` at position `(b, d)`.
-/
import proofs.«136793_j31662498906303_2_alg».proof.Proof.Gen.KernelIdeal.Frame
import proofs.«136793_j31662498906303_2_alg».proof.Proof.KernelBody
import proofs.«136793_j31662498906303_2_alg».proof.Proof.KernelHost
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Attn
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The two whole-array functions -/

/-- The softmax weights of row `i`. -/
def attnRow (A0 : FVec Ideal S57344x768 .f32) (A1 : FVec Ideal S768x768 .bf16) (A2 : FVec Ideal S1x768 .f32)
    (A3 : FVec Ideal S768x7 .bf16) (i : Fin 57344) : Fin 7 → EReal :=
  soft LO (scoresFolded (proj (fun e => A0 (ix2 i e)) (fun g e => A1 (ix2 e g)) (fun g => A2 (ix2 (0 : Fin 1) g)))
    (fun f r => A3 (ix2 f r)))

/-- The weights array. -/
def attnArr (A0 : FVec Ideal S57344x768 .f32) (A1 : FVec Ideal S768x768 .bf16) (A2 : FVec Ideal S1x768 .f32)
    (A3 : FVec Ideal S768x7 .bf16) : FVec Ideal S57344x7 .f32 :=
  fun j => attnRow A0 A1 A2 A3 ⟨(j 0).val, idx2_lt0 j⟩ ⟨(j 1).val, idx2_lt1 j⟩

/-- The attended-features array. -/
def outArr (A0 : FVec Ideal S57344x768 .f32) (A1 : FVec Ideal S768x768 .bf16) (A2 : FVec Ideal S1x768 .f32)
    (A3 : FVec Ideal S768x7 .bf16) (A4 : FVec Ideal S7x768 .bf16) : FVec Ideal S57344x768 .f32 :=
  fun j => mix (attnRow A0 A1 A2 A3 ⟨(j 0).val, idx2_lt0 j⟩) (fun r f => A4 (ix2 r f)) ⟨(j 1).val, idx2_lt1 j⟩

/-- The body's first stored value at `(p, r)`, when its loaded blocks agree with the arrays at row `i`. -/
theorem pay1_of_rows (x0 : FVec Ideal S1792x768 .f32) (x1 : FVec Ideal S768x768 .bf16) (x2 : FVec Ideal S1x768 .f32)
    (x3 : FVec Ideal S768x7 .bf16) (A0 : FVec Ideal S57344x768 .f32) (A1 : FVec Ideal S768x768 .bf16)
    (A2 : FVec Ideal S1x768 .f32) (A3 : FVec Ideal S768x7 .bf16) (p : Fin 1792) (r : Fin 7) (i : Fin 57344)
    (h0 : ∀ e, x0 (ix2 p e) = A0 (ix2 i e)) (h1 : x1 = A1) (h2 : x2 = A2) (h3 : x3 = A3) :
    k0_pay1 (F := Ideal) x0 x1 x2 x3 (ix2 p r) = attnRow A0 A1 A2 A3 i r := by
  subst h1 h2 h3
  rw [pay1_apply]
  unfold attnRow
  simp only [h0]

/-- The second stored value at `(p, f)` likewise. -/
theorem pay2_of_rows (x0 : FVec Ideal S1792x768 .f32) (x1 : FVec Ideal S768x768 .bf16) (x2 : FVec Ideal S1x768 .f32)
    (x3 : FVec Ideal S768x7 .bf16) (x4 : FVec Ideal S7x768 .bf16) (A0 : FVec Ideal S57344x768 .f32) (A1 : FVec Ideal S768x768 .bf16)
    (A2 : FVec Ideal S1x768 .f32) (A3 : FVec Ideal S768x7 .bf16) (A4 : FVec Ideal S7x768 .bf16) (p : Fin 1792) (f : Fin 768) (i : Fin 57344)
    (h0 : ∀ e, x0 (ix2 p e) = A0 (ix2 i e)) (h1 : x1 = A1) (h2 : x2 = A2) (h3 : x3 = A3) (h4 : x4 = A4) :
    k0_pay2 (F := Ideal) x0 x1 x2 x3 x4 (ix2 p f) = mix (attnRow A0 A1 A2 A3 i) (fun r f => A4 (ix2 r f)) f := by
  subst h1 h2 h3 h4
  rw [pay2_apply]
  unfold attnRow
  simp only [h0]

/-! ## The blocks -/

/-- The printed index maps over the grid: windows 0, 5 and 6 are at block row `t`; windows 1–4 stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the features block at point `t` is row `1792 t + p` of the re-laid features. -/
theorem iblk0_apply (c : Dev nD) (t : Fin cfg0.N) (p : Fin 1792) (e : Fin 768) (i : Fin 57344) (hi : i.val = 1792 * t.val + p.val) :
    (iblk m c 0 t : FVec Ideal S1792x768 .f32) (ix2 p e) = (V m c main_v21 : FVec Ideal S57344x768 .f32) (ix2 i e) := by
  obtain ⟨e0, e1, -⟩ := idx_facts t
  unfold iblk
  rw [View.read_apply]
  show V m c main_v21 _ = V m c main_v21 _
  refine congrArg (V m c main_v21) (funext fun a => Fin.ext ?_)
  match a with
  | ⟨0, _⟩ => show win0_0.index t (0 : Fin 2) * 1792 + 1 * p.val = i.val; rw [e0, hi]; omega
  | ⟨1, _⟩ => show win0_0.index t (1 : Fin 2) * 768 + 1 * e.val = e.val; rw [e1]; omega

/-- The weight block at every point is the whole transposed weight. -/
theorem iblk1_eq (c : Dev nD) (t : Fin cfg0.N) :
    (iblk m c 1 t : FVec Ideal S768x768 .bf16) = (V m c main_v17 : FVec Ideal S768x768 .bf16) := by
  obtain ⟨-, -, e0, e1, -⟩ := idx_facts t
  funext y
  unfold iblk
  rw [View.read_apply]
  show V m c main_v17 _ = V m c main_v17 _
  refine congrArg (V m c main_v17) (funext fun a => Fin.ext ?_)
  match a with
  | ⟨0, _⟩ => show win0_1.index t (0 : Fin 2) * 768 + 1 * (y 0).val = (y 0).val; rw [e0]; omega
  | ⟨1, _⟩ => show win0_1.index t (1 : Fin 2) * 768 + 1 * (y 1).val = (y 1).val; rw [e1]; omega

/-- The bias block is the whole bias row. -/
theorem iblk2_eq (c : Dev nD) (t : Fin cfg0.N) :
    (iblk m c 2 t : FVec Ideal S1x768 .f32) = (V m c main_v20 : FVec Ideal S1x768 .f32) := by
  obtain ⟨-, -, -, -, e0, e1, -⟩ := idx_facts t
  funext y
  unfold iblk
  rw [View.read_apply]
  show V m c main_v20 _ = V m c main_v20 _
  refine congrArg (V m c main_v20) (funext fun a => Fin.ext ?_)
  match a with
  | ⟨0, _⟩ => show win0_2.index t (0 : Fin 2) * 1 + 1 * (y 0).val = (y 0).val; rw [e0]; omega
  | ⟨1, _⟩ => show win0_2.index t (1 : Fin 2) * 768 + 1 * (y 1).val = (y 1).val; rw [e1]; omega

/-- The key block is the whole folded, transposed key array. -/
theorem iblk3_eq (c : Dev nD) (t : Fin cfg0.N) :
    (iblk m c 3 t : FVec Ideal S768x7 .bf16) = (V m c main_v18 : FVec Ideal S768x7 .bf16) := by
  obtain ⟨-, -, -, -, -, -, e0, e1, -⟩ := idx_facts t
  funext y
  unfold iblk
  rw [View.read_apply]
  show V m c main_v18 _ = V m c main_v18 _
  refine congrArg (V m c main_v18) (funext fun a => Fin.ext ?_)
  match a with
  | ⟨0, _⟩ => show win0_3.index t (0 : Fin 2) * 768 + 1 * (y 0).val = (y 0).val; rw [e0]; omega
  | ⟨1, _⟩ => show win0_3.index t (1 : Fin 2) * 7 + 1 * (y 1).val = (y 1).val; rw [e1]; omega

/-- The value block is the whole value array. -/
theorem iblk4_eq (c : Dev nD) (t : Fin cfg0.N) :
    (iblk m c 4 t : FVec Ideal S7x768 .bf16) = (V m c main_v19 : FVec Ideal S7x768 .bf16) := by
  obtain ⟨-, -, -, -, -, -, -, -, e0, e1, -⟩ := idx_facts t
  funext y
  unfold iblk
  rw [View.read_apply]
  show V m c main_v19 _ = V m c main_v19 _
  refine congrArg (V m c main_v19) (funext fun a => Fin.ext ?_)
  match a with
  | ⟨0, _⟩ => show win0_4.index t (0 : Fin 2) * 7 + 1 * (y 0).val = (y 0).val; rw [e0]; omega
  | ⟨1, _⟩ => show win0_4.index t (1 : Fin 2) * 768 + 1 * (y 1).val = (y 1).val; rw [e1]; omega

/-- Entry `(p, q)` of output block `t` sits at row `1792 t + p`, column `q`. -/
theorem emb5 (t : Fin cfg0.N) (p : Fin 1792) (q : Fin 768) (i : Fin 57344) (hi : i.val = 1792 * t.val + p.val) :
    ((cfg0.win 5).blk t).view.emb (ix2 p q) = (ix2 i q : S57344x768.Idx) := by
  obtain ⟨-, -, -, -, -, -, -, -, -, -, e0, e1, -⟩ := idx_facts t
  refine funext fun a => Fin.ext ?_
  match a with
  | ⟨0, _⟩ => show win0_5.index t (0 : Fin 2) * 1792 + 1 * p.val = i.val; rw [e0, hi]; omega
  | ⟨1, _⟩ => show win0_5.index t (1 : Fin 2) * 768 + 1 * q.val = q.val; rw [e1]; omega

theorem emb6 (t : Fin cfg0.N) (p : Fin 1792) (q : Fin 7) (i : Fin 57344) (hi : i.val = 1792 * t.val + p.val) :
    ((cfg0.win 6).blk t).view.emb (ix2 p q) = (ix2 i q : S57344x7.Idx) := by
  obtain ⟨-, -, -, -, -, -, -, -, -, -, -, -, e0, e1⟩ := idx_facts t
  refine funext fun a => Fin.ext ?_
  match a with
  | ⟨0, _⟩ => show win0_6.index t (0 : Fin 2) * 1792 + 1 * p.val = i.val; rw [e0, hi]; omega
  | ⟨1, _⟩ => show win0_6.index t (1 : Fin 2) * 7 + 1 * q.val = q.val; rw [e1]; omega

/-! ## What a point writes back -/

/-- The arrays the region reads. -/
abbrev R0 (c : Dev nD) : FVec Ideal S57344x768 .f32 := V m c main_v21
abbrev R1 (c : Dev nD) : FVec Ideal S768x768 .bf16 := V m c main_v17
abbrev R2 (c : Dev nD) : FVec Ideal S1x768 .f32 := V m c main_v20
abbrev R3 (c : Dev nD) : FVec Ideal S768x7 .bf16 := V m c main_v18
abbrev R4 (c : Dev nD) : FVec Ideal S7x768 .bf16 := V m c main_v19

set_option maxHeartbeats 1000000 in
/-- Point `t` writes back block `t` of the attended-features function. -/
theorem flushed5_eq (c : Dev nD) (t : Fin cfg0.N) :
    (dats m 0 c).flushed 5 t = ((cfg0.win 5).blk t).view.read (Elt Ideal) (outArr (R0 m c) (R1 m c) (R2 m c) (R3 m c) (R4 m c)) := by
  show (cfg0.win 5).cut (grid0.coords t) ((dats m 0 c).after 5 t) = _
  rw [after0_5]
  unfold out0_5
  rw [View.canon_unit_zero hz]
  simp only [View.ld_unit_zero (S := S1792x768) hz, View.ld_unit_zero (S := S768x768) hz, View.ld_unit_zero (S := S1x768) hz,
    View.ld_unit_zero (S := S768x7) hz, View.ld_unit_zero (S := S7x768) hz]
  have hN : cfg0.N = 32 := N_0
  funext y
  obtain ⟨p, q, rfl⟩ : ∃ (p : Fin 1792) (q : Fin 768), y = ix2 p q := ⟨y 0, y 1, eq_ix2 y⟩
  have hlt : 1792 * t.val + p.val < 57344 := by have := t.isLt; have := p.isLt; omega
  refine (pay2_of_rows (iblk m c 0 t) (iblk m c 1 t) (iblk m c 2 t) (iblk m c 3 t) (iblk m c 4 t) (R0 m c) (R1 m c) (R2 m c) (R3 m c) (R4 m c)
    p q ⟨1792 * t.val + p.val, hlt⟩ (fun e => iblk0_apply m c t p e _ rfl) (iblk1_eq m c t) (iblk2_eq m c t) (iblk3_eq m c t) (iblk4_eq m c t)).trans ?_
  rw [View.read_apply, emb5 t p q ⟨1792 * t.val + p.val, hlt⟩ rfl]
  rfl

/-- Point `t` writes back block `t` of the weights function. -/
theorem flushed6_eq (c : Dev nD) (t : Fin cfg0.N) :
    (dats m 0 c).flushed 6 t = ((cfg0.win 6).blk t).view.read (Elt Ideal) (attnArr (R0 m c) (R1 m c) (R2 m c) (R3 m c)) := by
  show (cfg0.win 6).cut (grid0.coords t) ((dats m 0 c).after 6 t) = _
  rw [after0_6]
  unfold out0_6
  rw [View.canon_unit_zero hz]
  simp only [View.ld_unit_zero (S := S1792x768) hz, View.ld_unit_zero (S := S768x768) hz, View.ld_unit_zero (S := S1x768) hz,
    View.ld_unit_zero (S := S768x7) hz]
  have hN : cfg0.N = 32 := N_0
  funext y
  obtain ⟨p, q, rfl⟩ : ∃ (p : Fin 1792) (q : Fin 7), y = ix2 p q := ⟨y 0, y 1, eq_ix2 y⟩
  have hlt : 1792 * t.val + p.val < 57344 := by have := t.isLt; have := p.isLt; omega
  refine (pay1_of_rows (iblk m c 0 t) (iblk m c 1 t) (iblk m c 2 t) (iblk m c 3 t) (R0 m c) (R1 m c) (R2 m c) (R3 m c)
    p q ⟨1792 * t.val + p.val, hlt⟩ (fun e => iblk0_apply m c t p e _ rfl) (iblk1_eq m c t) (iblk2_eq m c t) (iblk3_eq m c t)).trans ?_
  rw [View.read_apply, emb6 t p q ⟨1792 * t.val + p.val, hlt⟩ rfl]
  rfl

/-! ## The blocks tile the results -/

theorem mem_blk5 (t : Fin cfg0.N) (i : S57344x768.Idx) :
    i ∈ ((cfg0.win 5).blk t).view.set ↔ ∀ a : Fin 2, win0_5.index t a * S1792x768.size a ≤ (i a).val ∧ (i a).val < win0_5.index t a * S1792x768.size a + S1792x768.size a := by
  show i ∈ ((View.whole main_v22_0).slice (win0_5.rect t)).set ↔ _
  rw [View.set_slice_whole, Rect.mem_set_unit]
  exact Iff.rfl

theorem mem_blk6 (t : Fin cfg0.N) (i : S57344x7.Idx) :
    i ∈ ((cfg0.win 6).blk t).view.set ↔ ∀ a : Fin 2, win0_6.index t a * S1792x7.size a ≤ (i a).val ∧ (i a).val < win0_6.index t a * S1792x7.size a + S1792x7.size a := by
  show i ∈ ((View.whole main_v22_1).slice (win0_6.rect t)).set ↔ _
  rw [View.set_slice_whole, Rect.mem_set_unit]
  exact Iff.rfl

/-- Row `r` lies in the block of point `r / 1792`. -/
theorem cover5 (i : S57344x768.Idx) : ∃ t : Fin cfg0.N, (cfg0.win 5).flush t = true ∧ i ∈ ((cfg0.win 5).blk t).view.set := by
  have hN : cfg0.N = 32 := N_0
  have hi0 : (i 0).val < 57344 := (i 0).isLt
  have hi1 : (i 1).val < 768 := (i 1).isLt
  refine ⟨⟨(i 0).val / 1792, by omega⟩, flush0_5 _, ?_⟩
  rw [mem_blk5]
  obtain ⟨-, -, -, -, -, -, -, -, -, -, e0, e1, -⟩ := idx_facts ⟨(i 0).val / 1792, by omega⟩
  intro a
  match a with
  | ⟨0, _⟩ => show win0_5.index _ (0 : Fin 2) * 1792 ≤ (i 0).val ∧ (i 0).val < win0_5.index _ (0 : Fin 2) * 1792 + 1792; rw [e0]; show _ / 1792 * 1792 ≤ _ ∧ _ < _ / 1792 * 1792 + 1792; omega
  | ⟨1, _⟩ => show win0_5.index _ (1 : Fin 2) * 768 ≤ (i 1).val ∧ (i 1).val < win0_5.index _ (1 : Fin 2) * 768 + 768; rw [e1]; omega

theorem cover6 (i : S57344x7.Idx) : ∃ t : Fin cfg0.N, (cfg0.win 6).flush t = true ∧ i ∈ ((cfg0.win 6).blk t).view.set := by
  have hN : cfg0.N = 32 := N_0
  have hi0 : (i 0).val < 57344 := (i 0).isLt
  have hi1 : (i 1).val < 7 := (i 1).isLt
  refine ⟨⟨(i 0).val / 1792, by omega⟩, flush0_6 _, ?_⟩
  rw [mem_blk6]
  obtain ⟨-, -, -, -, -, -, -, -, -, -, -, -, e0, e1⟩ := idx_facts ⟨(i 0).val / 1792, by omega⟩
  intro a
  match a with
  | ⟨0, _⟩ => show win0_6.index _ (0 : Fin 2) * 1792 ≤ (i 0).val ∧ (i 0).val < win0_6.index _ (0 : Fin 2) * 1792 + 1792; rw [e0]; show _ / 1792 * 1792 ≤ _ ∧ _ < _ / 1792 * 1792 + 1792; omega
  | ⟨1, _⟩ => show win0_6.index _ (1 : Fin 2) * 7 ≤ (i 1).val ∧ (i 1).val < win0_6.index _ (1 : Fin 2) * 7 + 7; rw [e1]; omega

/-- The first result array after the run. -/
theorem final5 (c : Dev nD) : (dats m 0 c).arrAt 5 cfg0.N = outArr (R0 m c) (R1 m c) (R2 m c) (R3 m c) (R4 m c) :=
  (dats m 0 c).arrAt_eq_of_cover 5 _ (fun t _ => flushed5_eq m c t) cover5

/-- The second result array after the run. -/
theorem final6 (c : Dev nD) : (dats m 0 c).arrAt 6 cfg0.N = attnArr (R0 m c) (R1 m c) (R2 m c) (R3 m c) :=
  (dats m 0 c).arrAt_eq_of_cover 6 _ (fun t _ => flushed6_eq m c t) cover6

end Cert.KernelIdeal.Whole

end
-- ==== Proof.KernelRun.lean ====
/-
  The kernel program's run, read: its two results as functions of the arrays the region reads, position by position.

  After the region the host re-lays the two result arrays, of 57344 rows each, as `4096 × 14` positions: position
  `(b, d)` is row `14 b + d`.
-/
import proofs.«136793_j31662498906303_2_alg».proof.Proof.KernelValue
import proofs.«136793_j31662498906303_2_alg».proof.Proof.LibMidAxisLayout

set_option maxRecDepth 16384

noncomputable section

open scoped BigOperators

namespace Cert.KernelIdeal.Whole

open Cert.KernelIdeal Cert.KernelIdeal.Gen Cert.KernelIdeal.Body Idealize.ShloMosaic Idealize.ShloMosaic.TcCoe Idealize.SL.Sem
open Idealize.ShloMosaic.ValueIdx Idealize.ShloMosaic.StableHlo Cert.Attn
open Idealize.ShloMosaic.Pipeline (Dat)

variable (m : (ℓ : Loc nD τ sig) → Buf (Elt Ideal) ℓ) (ρ : Dev nD → PrngReg)

/-- The attended features, by position. -/
def out3 (c : Dev nD) : FVec Ideal S4096x14x768 .f32 :=
  shapeCast S4096x14x768 (outArr (R0 m c) (R1 m c) (R2 m c) (R3 m c) (R4 m c)) shapeCasts_S57344x768_S4096x14x768

/-- The attention weights, by position. -/
def attn3 (c : Dev nD) : FVec Ideal S4096x14x7 .f32 :=
  shapeCast S4096x14x7 (attnArr (R0 m c) (R1 m c) (R2 m c) (R3 m c)) shapeCasts_S57344x7_S4096x14x7

/-- The first result of the program is the first result array re-laid. -/
theorem tail23 (c : Dev nD) : Pipeline.afterTail₀ cfgs (dats m) 0 (V0 m) [hostOps1] c main_v23 = out3 m c := by
  unfold Pipeline.afterTail₀
  show StableHlo.after hostOps1 _ (Proc.devRef .tc main_v23) = _
  after_results
  have e : Pipeline.withArrays spec0 c (V0 m c) (fun w => (dats m 0 c).arrAt w cfg0.N) (Proc.devRef .tc main_v22_0)
      = outArr (R0 m c) (R1 m c) (R2 m c) (R3 m c) (R4 m c) :=
    (Pipeline.withArrays_arr spec0 launch0.win.arr_inj c _ _ 5).trans (final5 m c)
  unfold out3
  rw [← e]
  rfl

/-- The second result of the program is the second result array re-laid. -/
theorem tail24 (c : Dev nD) : Pipeline.afterTail₀ cfgs (dats m) 0 (V0 m) [hostOps1] c main_v24 = attn3 m c := by
  unfold Pipeline.afterTail₀
  show StableHlo.after hostOps1 _ (Proc.devRef .tc main_v24) = _
  after_results
  have e : Pipeline.withArrays spec0 c (V0 m c) (fun w => (dats m 0 c).arrAt w cfg0.N) (Proc.devRef .tc main_v22_1)
      = attnArr (R0 m c) (R1 m c) (R2 m c) (R3 m c) :=
    (Pipeline.withArrays_arr spec0 launch0.win.arr_inj c _ _ 6).trans (final6 m c)
  unfold attn3
  rw [← e]
  rfl

/-- THE RUN: every weakly fair execution terminates with the two results at `out3` and `attn3` and the arguments unchanged. -/
theorem run : θ_run defs (onTc (τ := τ) (main (F := Ideal))) ⟨m, fun _ => 0, ρ⟩ fun r => ∀ c : Dev nD,
      r.2.mem ((c.tc : Thread nD τ).loc main_v23) = out3 m c
      ∧ r.2.mem ((c.tc : Thread nD τ).loc main_v24) = attn3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v23 (Pipeline.mem_restRefs_of main_v23 (by decide) (by decide))).trans (tail23 m c),
     ((h c).2 main_v24 (Pipeline.mem_restRefs_of main_v24 (by decide) (by decide))).trans (tail24 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c)⟩)
    (run_main m ρ)

/-- The weights at position `(b, d)` are row `14 b + d`'s. -/
theorem attn3_apply (c : Dev nD) (b : Fin 4096) (d : Fin 14) (r : Fin 7) (i : Fin 57344) (hi : i.val = b.val * 14 + d.val) :
    attn3 m c (ix3 b d r) = attnRow (R0 m c) (R1 m c) (R2 m c) (R3 m c) i r := by
  unfold attn3
  rw [LibMidAxisLayout.shapeCast_mc_abc_apply _ shapeCasts_S57344x7_S4096x14x7 b d r i hi]
  rfl

/-- The attended features at position `(b, d)` are row `14 b + d`'s. -/
theorem out3_apply (c : Dev nD) (b : Fin 4096) (d : Fin 14) (f : Fin 768) (i : Fin 57344) (hi : i.val = b.val * 14 + d.val) :
    out3 m c (ix3 b d f) = mix (attnRow (R0 m c) (R1 m c) (R2 m c) (R3 m c) i) (fun r f => R4 m c (ix2 r f)) f := by
  unfold out3
  rw [LibMidAxisLayout.shapeCast_mc_abc_apply _ shapeCasts_S57344x768_S4096x14x768 b d f i hi]
  rfl

end Cert.KernelIdeal.Whole

end
-- ==== Proof.RefValue.lean ====
/-
  The reference's stages at the position `(b, d)`, in the vocabulary of the row attention.

  At `(b, d)` the reference projects the feature row to a query, takes its seven scores against the region keys,
  multiplies each by the scale and then by the region weight, takes the softmax over the seven regions (its maximum
  is folded from `-∞` and then compared with `-∞` once more, which changes nothing; its sum starts from `0`), and
  mixes the region values.
-/
import proofs.«136793_j31662498906303_2_alg».proof.Proof.Gen.ReferenceIdeal.Read
import Idealize.ShloMosaic.PureOps.Ideal.Laws
import Idealize.ShloMosaic.Lib.ValueIdx
import proofs.«136793_j31662498906303_2_alg».proof.Proof.AttnSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 : FVec Ideal S4096x14x768 .f32) (x1 : FVec Ideal S7x768 .f32) (x2 : FVec Ideal S768x768 .f32)
  (x3 : FVec Ideal S768 .f32) (x4 : FVec Ideal S768x768 .f32) (x5 : FVec Ideal S768 .f32) (x6 : FVec Ideal S768x768 .f32)
  (x7 : FVec Ideal S768 .f32) (x8 : FVec Ideal S7 .f32)

abbrev LO : EReal := Ideal.ofBits .f32 0xFF800000#32
abbrev SCALE : EReal := Ideal.ofBits .f32 0x3D13CD3A#32

/-- The witness naming the index put back by a reduction over the last axis. -/
theorem red7 : S4096x14x7.Reduces [2] S4096x14 := by decide

/-- The index of `(b, d)` with region `k` put back is `(b, d, k)`. -/
theorem lift7 (b : Fin 4096) (d : Fin 14) (k : Fin (S4096x14x7.size 2)) :
    red7.lift (ix2 b d) k = ix3 b d (⟨k.val, k.isLt⟩ : Fin 7) := by
  funext c; apply Fin.ext
  fin_cases c <;> rfl

/-- A key entry is the affine image of a region embedding. -/
theorem keys_apply (r : Fin 7) (f : Fin 768) :
    val_main_v8 (F := Ideal) x1 x4 x5 (ix2 r f)
      = proj (fun j => x1 (ix2 r j)) (fun f j => x4 (ix2 f j)) (fun f => x5 (ix1 f)) f := by
  rw [val_main_v8_apply, val_main_v5_apply, val_main_v7_apply, val_main_v6_apply]
  simp only [val_main_v4_apply]
  have e1 : ∀ k : Fin 768, lidx_main_v5 (ix2 r f) k = ix2 r k := fun k =>
    funext fun a => Fin.ext (by match a with | ⟨0, _⟩ => rfl | ⟨1, _⟩ => rfl)
  have e2 : ∀ k : Fin 768, idx_main_v4 (ridx_main_v5 (ix2 r f) k) = ix2 f k := fun k =>
    funext fun a => Fin.ext (by match a with | ⟨0, _⟩ => rfl | ⟨1, _⟩ => rfl)
  have e3 : idx_main_v6 (idx_main_v7 (ix2 r f)) = ix1 f :=
    funext fun a => Fin.ext (by match a with | ⟨0, _⟩ => rfl)
  simp only [e1, e2, e3]
  rfl

/-- A value entry likewise. -/
theorem vals_apply (r : Fin 7) (f : Fin 768) :
    val_main_v13 (F := Ideal) x1 x6 x7 (ix2 r f)
      = proj (fun j => x1 (ix2 r j)) (fun f j => x6 (ix2 f j)) (fun f => x7 (ix1 f)) f := by
  rw [val_main_v13_apply, val_main_v10_apply, val_main_v12_apply, val_main_v11_apply]
  simp only [val_main_v9_apply]
  have e1 : ∀ k : Fin 768, lidx_main_v10 (ix2 r f) k = ix2 r k := fun k =>
    funext fun a => Fin.ext (by match a with | ⟨0, _⟩ => rfl | ⟨1, _⟩ => rfl)
  have e2 : ∀ k : Fin 768, idx_main_v9 (ridx_main_v10 (ix2 r f) k) = ix2 f k := fun k =>
    funext fun a => Fin.ext (by match a with | ⟨0, _⟩ => rfl | ⟨1, _⟩ => rfl)
  have e3 : idx_main_v11 (idx_main_v12 (ix2 r f)) = ix1 f :=
    funext fun a => Fin.ext (by match a with | ⟨0, _⟩ => rfl)
  simp only [e1, e2, e3]
  rfl

/-- A query entry is the affine image of the feature row. -/
theorem query_apply (b : Fin 4096) (d : Fin 14) (g : Fin 768) :
    val_main_v3 (F := Ideal) x0 x2 x3 (ix3 b d g)
      = proj (fun e => x0 (ix3 b d e)) (fun g e => x2 (ix2 g e)) (fun g => x3 (ix1 g)) g := by
  rw [val_main_v3_apply, val_main_v0_apply, val_main_v2_apply, val_main_v1_apply]
  have e1 : ∀ k : Fin 768, lidx_main_v0 (ix3 b d g) k = ix3 b d k := fun k =>
    funext fun a => Fin.ext (by match a with | ⟨0, _⟩ => rfl | ⟨1, _⟩ => rfl | ⟨2, _⟩ => rfl)
  have e2 : ∀ k : Fin 768, ridx_main_v0 (ix3 b d g) k = ix2 g k := fun k =>
    funext fun a => Fin.ext (by match a with | ⟨0, _⟩ => rfl | ⟨1, _⟩ => rfl)
  have e3 : idx_main_v1 (idx_main_v2 (ix3 b d g)) = ix1 g :=
    funext fun a => Fin.ext (by match a with | ⟨0, _⟩ => rfl)
  simp only [e1, e2, e3]
  rfl

/-- The scores of position `(b, d)`, scaled after the product. -/
theorem scores_apply (b : Fin 4096) (d : Fin 14) (r : Fin 7) :
    val_main_v19 (F := Ideal) x0 x1 x2 x3 x4 x5 x8 (ix3 b d r)
      = scoresScaled (fun f => val_main_v3 (F := Ideal) x0 x2 x3 (ix3 b d f)) (fun r f => val_main_v8 (F := Ideal) x1 x4 x5 (ix2 r f))
          SCALE (fun r => x8 (ix1 r)) r := by
  rw [val_main_v19_apply, val_main_v16_apply, val_main_v14_apply, val_main_v15_apply, val_main_cst_apply, val_main_v18_apply,
    val_main_v17_apply]
  have e1 : ∀ k : Fin 768, lidx_main_v14 (ix3 b d r) k = ix3 b d k := fun k =>
    funext fun a => Fin.ext (by match a with | ⟨0, _⟩ => rfl | ⟨1, _⟩ => rfl | ⟨2, _⟩ => rfl)
  have e2 : ∀ k : Fin 768, ridx_main_v14 (ix3 b d r) k = ix2 r k := fun k =>
    funext fun a => Fin.ext (by match a with | ⟨0, _⟩ => rfl | ⟨1, _⟩ => rfl)
  have e3 : idx_main_v17 (idx_main_v18 (ix3 b d r)) = ix1 r :=
    funext fun a => Fin.ext (by match a with | ⟨0, _⟩ => rfl)
  simp only [e1, e2, e3]
  rfl

/-- The seven scores of position `(b, d)`. -/
abbrev srow (b : Fin 4096) (d : Fin 14) : Fin 7 → EReal :=
  fun k => val_main_v19 (F := Ideal) x0 x1 x2 x3 x4 x5 x8 (ix3 b d k)

/-- The row maximum at `(b, d)`. -/
theorem max_apply (b : Fin 4096) (d : Fin 14) :
    val_main_v22 (F := Ideal) x0 x1 x2 x3 x4 x5 x8 (ix2 b d) = rowMax LO (srow x0 x1 x2 x3 x4 x5 x8 b d) := by
  rw [val_main_v22_apply, val_main_v21_apply, val_main_cst_1_apply]
  unfold val_main_v20
  rw [Host.reduce_eq_fold_single FloatOps.maximumf _ _ reducesTo_S4096x14x7_S4096x14_d2 red7 h_S_ (ix2 b d)]
  show max LO ((Finset.univ : Finset (Fin 7)).fold max LO
      (fun k => val_main_v19 (F := Ideal) x0 x1 x2 x3 x4 x5 x8 (red7.lift (ix2 b d) k))) = _
  have e : (Finset.univ : Finset (Fin 7)).fold max LO
      (fun k => val_main_v19 (F := Ideal) x0 x1 x2 x3 x4 x5 x8 (red7.lift (ix2 b d) k)) = rowMax LO (srow x0 x1 x2 x3 x4 x5 x8 b d) :=
    congrArg (fun f => (Finset.univ : Finset (Fin 7)).fold max LO f)
      (funext fun k => congrArg (val_main_v19 (F := Ideal) x0 x1 x2 x3 x4 x5 x8) (lift7 b d k))
  exact (congrArg (max LO) e).trans (max_rowMax LO _)

/-- An exponential entry. -/
theorem exp_apply (b : Fin 4096) (d : Fin 14) (r : Fin 7) :
    val_main_v26 (F := Ideal) x0 x1 x2 x3 x4 x5 x8 (ix3 b d r)
      = Ideal.exp (srow x0 x1 x2 x3 x4 x5 x8 b d r - rowMax LO (srow x0 x1 x2 x3 x4 x5 x8 b d)) := by
  rw [val_main_v26_apply, val_main_v25_apply, val_main_v24_apply, val_main_v23_apply]
  have e : idx_main_v23 (idx_main_v24 (ix3 b d r)) = ix2 b d :=
    funext fun a => Fin.ext (by match a with | ⟨0, _⟩ => rfl | ⟨1, _⟩ => rfl)
  rw [e, max_apply]
  rfl

/-- The row sum at `(b, d)`. -/
theorem sum_apply (b : Fin 4096) (d : Fin 14) :
    val_main_v27 (F := Ideal) x0 x1 x2 x3 x4 x5 x8 (ix2 b d)
      = ∑ k : Fin 7, val_main_v26 (F := Ideal) x0 x1 x2 x3 x4 x5 x8 (ix3 b d k) := by
  rw [val_main_v27_apply, val_main_cst_2_apply]
  show Ideal.ofBits .f32 0x00000000#32 + _ = _
  rw [Ideal.ofBits_zero_f32, zero_add]
  refine Finset.sum_congr rfl fun k _ => congrArg _ ?_
  exact funext fun a => Fin.ext (by match a with | ⟨0, _⟩ => rfl | ⟨1, _⟩ => rfl | ⟨2, _⟩ => rfl)

/-- THE ATTENTION WEIGHTS at `(b, d, r)`: the softmax weight of region `r`. -/
theorem attn_apply (b : Fin 4096) (d : Fin 14) (r : Fin 7) :
    val_main_v30 (F := Ideal) x0 x1 x2 x3 x4 x5 x8 (ix3 b d r) = soft LO (srow x0 x1 x2 x3 x4 x5 x8 b d) r := by
  rw [val_main_v30_apply, val_main_v29_apply, val_main_v28_apply]
  have e : idx_main_v28 (idx_main_v29 (ix3 b d r)) = ix2 b d :=
    funext fun a => Fin.ext (by match a with | ⟨0, _⟩ => rfl | ⟨1, _⟩ => rfl)
  rw [e, sum_apply, exp_apply]
  simp only [exp_apply]
  rfl

/-- THE ATTENDED FEATURES at `(b, d, f)`: the region values mixed by the weights. -/
theorem out_apply (b : Fin 4096) (d : Fin 14) (f : Fin 768) :
    val_main_v31 (F := Ideal) x0 x1 x2 x3 x4 x5 x6 x7 x8 (ix3 b d f)
      = mix (fun r => val_main_v30 (F := Ideal) x0 x1 x2 x3 x4 x5 x8 (ix3 b d r))
          (fun r f => val_main_v13 (F := Ideal) x1 x6 x7 (ix2 r f)) f := by
  rw [val_main_v31_apply]
  have e1 : ∀ k : Fin 7, lidx_main_v31 (ix3 b d f) k = ix3 b d k := fun k =>
    funext fun a => Fin.ext (by match a with | ⟨0, _⟩ => rfl | ⟨1, _⟩ => rfl | ⟨2, _⟩ => rfl)
  have e2 : ∀ k : Fin 7, ridx_main_v31 (ix3 b d f) k = ix2 k f := fun k =>
    funext fun a => Fin.ext (by match a with | ⟨0, _⟩ => rfl | ⟨1, _⟩ => rfl)
  simp only [e1, e2]
  rfl

end Cert.ReferenceIdeal.RefValue

end
-- ==== Proof.Finite.lean ====
/-
  From the precondition to real entries.

  The precondition conjoins, over the nine argument arrays, "every entry `x` satisfies `|x| < +∞`".  On the extended
  reals `|x| = max x (−x)` is below `⊤` exactly when `x` is neither `⊤` nor `⊥`, that is, when `x` is a real number.
  The scale constant of both programs is a normal pattern, so it denotes a real number too.
-/
import proofs.«136793_j31662498906303_2_alg».proof.Pre_finite_inputs
import proofs.«136793_j31662498906303_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen Idealize.ShloMosaic

instance : Subsingleton S_.Idx := ⟨fun a b => funext fun d => d.elim0⟩

/-- An extended real whose absolute value is below `+∞` is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One `jnp.all(|x| < inf)` conjunct that is 1 makes every entry of `x` real. -/
theorem real_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : ∃ r : ℝ, x i = r :=
  real_of_abs_lt_top (x i) (Host.reduce_andi_all _ _ hr hu ValueIdx.ix0 e i)

/-- THE PRECONDITION, READ: every entry of every argument array is a real number. -/
theorem reals (x0 : FVec Ideal S4096x14x768 .f32) (x1 : FVec Ideal S7x768 .f32) (x2 : FVec Ideal S768x768 .f32)
    (x3 : FVec Ideal S768 .f32) (x4 : FVec Ideal S768x768 .f32) (x5 : FVec Ideal S768 .f32) (x6 : FVec Ideal S768x768 .f32)
    (x7 : FVec Ideal S768 .f32) (x8 : FVec Ideal S7 .f32)
    (h : fn (F := Ideal) x0 x1 x2 x3 x4 x5 x6 x7 x8 = fun _ => 1#1) :
    (∀ i, ∃ r : ℝ, x0 i = r) ∧ (∀ i, ∃ r : ℝ, x1 i = r) ∧ (∀ i, ∃ r : ℝ, x2 i = r) ∧ (∀ i, ∃ r : ℝ, x3 i = r)
      ∧ (∀ i, ∃ r : ℝ, x4 i = r) ∧ (∀ i, ∃ r : ℝ, x5 i = r) ∧ (∀ i, ∃ r : ℝ, x6 i = r) ∧ (∀ i, ∃ r : ℝ, x7 i = r)
      ∧ (∀ i, ∃ r : ℝ, x8 i = r) := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2, real_of_all x3 _ _ _ e3,
    real_of_all x4 _ _ _ e4, real_of_all x5 _ _ _ e5, real_of_all x6 _ _ _ e6, real_of_all x7 _ _ _ e7, real_of_all x8 _ _ _ e8⟩

/-- The scale constant denotes a real number. -/
theorem scale_real : ∃ r : ℝ, Ideal.ofBits .f32 0x3D13CD3A#32 = (r : EReal) := by
  simp [Ideal.ofBits, Ideal.ieee, -EReal.coe_mul]

end Cert.Pre_finite_inputs.Finite

end
-- ==== Proof.Bridge.lean ====
/-
  The two programs compute one function of finite arguments.

  At position `(b, d)` the kernel's row is the feature row `(b, d)`, its query the reference's query, its folded keys
  the reference's keys times `c · w r`.  With every argument entry a real number the queries and the keys are real
  numbers, so the folded scores are the reference's scaled scores; the softmax and the mix are then the same terms.
-/
import proofs.«136793_j31662498906303_2_alg».proof.Proof.KernelRun
import proofs.«136793_j31662498906303_2_alg».proof.Proof.RefValue
import proofs.«136793_j31662498906303_2_alg».proof.Proof.Finite

noncomputable section

open scoped BigOperators

namespace Cert.Bridge

open Idealize.ShloMosaic Idealize.ShloMosaic.TcCoe Idealize.SL.Sem Idealize.ShloMosaic.ValueIdx Cert.Attn
open Cert.ReferenceIdeal.Read Cert.ReferenceIdeal.RefValue Cert.KernelIdeal.Whole Cert.KernelIdeal.HostSide

variable (m : (ℓ : Loc Cert.KernelIdeal.nD Cert.KernelIdeal.τ Cert.KernelIdeal.sig) → Buf (Elt Ideal) ℓ)

/-- The finiteness the bridge uses, of the kernel program's argument arrays on core `c`. -/
structure Reals (c : Dev Cert.KernelIdeal.nD) : Prop where
  h0 : ∀ i, ∃ r : ℝ, a0 m c i = r
  h1 : ∀ i, ∃ r : ℝ, a1 m c i = r
  h2 : ∀ i, ∃ r : ℝ, a2 m c i = r
  h3 : ∀ i, ∃ r : ℝ, a3 m c i = r
  h4 : ∀ i, ∃ r : ℝ, a4 m c i = r
  h5 : ∀ i, ∃ r : ℝ, a5 m c i = r
  h8 : ∀ i, ∃ r : ℝ, a8 m c i = r

/-- The kernel's weights at `(b, d, r)` are the reference's. -/
theorem attn_eq (c : Dev Cert.KernelIdeal.nD) (hR : Reals m c) (b : Fin 4096) (d : Fin 14) (r : Fin 7) :
    attn3 m c (ix3 b d r)
      = val_main_v30 (F := Ideal) (a0 m c) (a1 m c) (a2 m c) (a3 m c) (a4 m c) (a5 m c) (a8 m c) (ix3 b d r) := by
  have hlt : b.val * 14 + d.val < 57344 := by have := b.isLt; have := d.isLt; omega
  rw [attn3_apply m c b d r ⟨b.val * 14 + d.val, hlt⟩ rfl, attn_apply]
  unfold attnRow
  refine congrArg (fun s => soft Cert.KernelIdeal.Body.LO s r) ?_
  have eq : (fun e => R0 m c (ix2 (⟨b.val * 14 + d.val, hlt⟩ : Fin 57344) e)) = fun e => a0 m c (ix3 b d e) :=
    funext fun e => feat_apply m c _ b d e rfl
  have e1 : (fun g e => R1 m c (ix2 e g)) = fun g e => a2 m c (ix2 g e) := funext fun g => funext fun e => wqt_apply m c e g
  have e2 : (fun g => R2 m c (ix2 (0 : Fin 1) g)) = fun g => a3 m c (ix1 g) := funext fun g => bias_apply m c g
  have e3 : (fun f r => R3 m c (ix2 f r)) = fun f r => keys m c (ix2 r f) * (Cert.KernelIdeal.HostSide.SCALE * a8 m c (ix1 r)) :=
    funext fun f => funext fun r => kt_apply m c f r
  rw [eq, e1, e2, e3]
  rw [scoresFolded_eq_scoresScaled _ (fun r f => keys m c (ix2 r f)) Cert.KernelIdeal.HostSide.SCALE (fun r => a8 m c (ix1 r))
    (proj_isReal _ _ _ (fun e => hR.h0 _) (fun g e => hR.h2 _) (fun g => hR.h3 _))
    (fun r f => by
      rw [show keys m c (ix2 r f) = _ from keys_apply (a1 m c) (a4 m c) (a5 m c) r f]
      exact proj_isReal _ _ _ (fun j => hR.h1 _) (fun f j => hR.h4 _) (fun f => hR.h5 _) f)
    Cert.Pre_finite_inputs.Finite.scale_real (fun r => hR.h8 _)]
  funext k
  rw [show srow (a0 m c) (a1 m c) (a2 m c) (a3 m c) (a4 m c) (a5 m c) (a8 m c) b d k = _ from
    scores_apply (a0 m c) (a1 m c) (a2 m c) (a3 m c) (a4 m c) (a5 m c) (a8 m c) b d k]
  refine congrArg (fun q => scoresScaled q _ _ _ k) (funext fun f => ?_)
  exact (query_apply (a0 m c) (a2 m c) (a3 m c) b d f).symm

/-- The kernel's attended features at `(b, d, f)` are the reference's. -/
theorem out_eq (c : Dev Cert.KernelIdeal.nD) (hR : Reals m c) (b : Fin 4096) (d : Fin 14) (f : Fin 768) :
    out3 m c (ix3 b d f)
      = val_main_v31 (F := Ideal) (a0 m c) (a1 m c) (a2 m c) (a3 m c) (a4 m c) (a5 m c) (a6 m c) (a7 m c) (a8 m c) (ix3 b d f) := by
  have hlt : b.val * 14 + d.val < 57344 := by have := b.isLt; have := d.isLt; omega
  rw [out3_apply m c b d f ⟨b.val * 14 + d.val, hlt⟩ rfl, out_apply]
  have e4 : (fun r f => R4 m c (ix2 r f)) = fun r f => vals m c (ix2 r f) := funext fun r => funext fun f => v_apply m c r f
  rw [e4]
  refine congrArg (fun a => mix a _ f) (funext fun r => ?_)
  rw [← attn3_apply m c b d r ⟨b.val * 14 + d.val, hlt⟩ rfl]
  exact attn_eq m c hR b d r

/-- So the two result arrays are the reference's stages. -/
theorem attn3_eq (c : Dev Cert.KernelIdeal.nD) (hR : Reals m c) :
    attn3 m c = val_main_v30 (F := Ideal) (a0 m c) (a1 m c) (a2 m c) (a3 m c) (a4 m c) (a5 m c) (a8 m c) :=
  funext fun j => by
    obtain ⟨b, d, r, rfl⟩ : ∃ (b : Fin 4096) (d : Fin 14) (r : Fin 7), j = ix3 b d r := ⟨j 0, j 1, j 2, eq_ix3 j⟩
    exact attn_eq m c hR b d r

theorem out3_eq (c : Dev Cert.KernelIdeal.nD) (hR : Reals m c) :
    out3 m c = val_main_v31 (F := Ideal) (a0 m c) (a1 m c) (a2 m c) (a3 m c) (a4 m c) (a5 m c) (a6 m c) (a7 m c) (a8 m c) :=
  funext fun j => by
    obtain ⟨b, d, f, rfl⟩ : ∃ (b : Fin 4096) (d : Fin 14) (f : Fin 768), j = ix3 b d f := ⟨j 0, j 1, j 2, eq_ix3 j⟩
    exact out_eq m c hR b d f

end Cert.Bridge

end
-- ==== Proof.lean ====
/-
  Region attention: a fused kernel over blocks of 1792 feature rows against the plain formulation.

  Both programs take features `x[b, d, ·]`, seven region embeddings, three weight matrices with their biases and
  seven region weights `w`.  Both form the keys `K = regions · Wkᵀ + bk` and the values `V = regions · Wvᵀ + bv`, project
  every feature row to a query `q = x · Wqᵀ + bq`, score it against the seven keys, take a softmax over the regions
  and mix the values with the weights; they return the mixed features and the weights.

  They differ in where the scale `c` (one literal, the same word in both) and the region weight enter the score: the
  reference computes `((∑ f, q f · K r f) · c) · w r`; the kernel folds `c · w r` into row `r` of `K` on the host and
  computes `∑ f, q f · (K r f · (c · w r))` in its body.  On the extended reals these agree when every factor is a
  real number, which the precondition (every argument entry finite) provides: queries and keys are then affine
  images of real numbers, and the identity is distributivity in ℝ.  Everything else is layout: the kernel works on the
  features re-laid as 57344 rows, 1792 rows per grid point, with the query weight transposed beforehand, and its two
  result arrays are re-laid as `4096 × 14` positions; changes of float format are the identity on the extended
  reals, a product into a zero accumulator is the plain product, a row maximum folded from `-∞` is not changed by a
  further `max` with `-∞`, and a row sum from `0` is the plain sum.

  The three frames are the generated ones (the reference's is its generated run with the results dropped); no
  operation of the kernel was rewritten for the ideal reading, so `preserves` is `True`.
-/
import proofs.«136793_j31662498906303_2_alg».proof.Defs
import proofs.«136793_j31662498906303_2_alg».proof.Proof.Gen.Kernel
import proofs.«136793_j31662498906303_2_alg».proof.Proof.Gen.Kernel.Skeleton
import proofs.«136793_j31662498906303_2_alg».proof.Proof.Gen.Kernel.Launch
import proofs.«136793_j31662498906303_2_alg».proof.Proof.Gen.Kernel.Points
import proofs.«136793_j31662498906303_2_alg».proof.Proof.Gen.Kernel.Frame
import proofs.«136793_j31662498906303_2_alg».proof.Proof.Gen.KernelIdeal
import proofs.«136793_j31662498906303_2_alg».proof.Proof.Gen.KernelIdeal.Skeleton
import proofs.«136793_j31662498906303_2_alg».proof.Proof.Gen.KernelIdeal.Launch
import proofs.«136793_j31662498906303_2_alg».proof.Proof.Gen.KernelIdeal.Points
import proofs.«136793_j31662498906303_2_alg».proof.Proof.Gen.KernelIdeal.Frame
import proofs.«136793_j31662498906303_2_alg».proof.Proof.Gen.ReferenceIdeal
import proofs.«136793_j31662498906303_2_alg».proof.Proof.Gen.Pre_finite_inputs
import proofs.«136793_j31662498906303_2_alg».proof.Proof.Gen.ReferenceIdeal.Run
import proofs.«136793_j31662498906303_2_alg».proof.Proof.Gen.ReferenceIdeal.Read
import proofs.«136793_j31662498906303_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the same mixed features and the same attention weights. -/
theorem algebraic : Cert.algebraic_KernelIdeal_ReferenceIdeal := by
  intro m ρ m' ρ' hpre hagree
  have hR : ∀ c, Cert.Bridge.Reals m c := fun c => by
    obtain ⟨h0, h1, h2, h3, h4, h5, h6, h7, h8⟩ := Cert.Pre_finite_inputs.Finite.reals _ _ _ _ _ _ _ _ _ (hpre c)
    exact ⟨h0, h1, h2, h3, h4, h5, h8⟩
  refine ⟨fun c => Cert.KernelIdeal.Whole.out3 m c, fun c => Cert.KernelIdeal.Whole.attn3 m c,
    Cert.KernelIdeal.Whole.run m ρ, ?_⟩
  refine (θ_run Cert.ReferenceIdeal.defs _ _).mono (fun _ h c => ?_) (Cert.ReferenceIdeal.Value.run (F := Ideal) m' ρ')
  obtain ⟨g0, g1, g2, g3, g4, g5, g6, g7, g8⟩ := hagree c
  refine ⟨(h c).1.trans ?_, (h c).2.1.trans ?_, (h c).2.2⟩
  · rw [Cert.ReferenceIdeal.Read.val_main_v31_eq, g0, g1, g2, g3, g4, g5, g6, g7, g8]
    exact (Cert.Bridge.out3_eq m c (hR c)).symm
  · rw [Cert.ReferenceIdeal.Read.val_main_v30_eq, g0, g1, g2, g3, g4, g5, g8]
    exact (Cert.Bridge.attn3_eq m c (hR c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
